-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)) →
    ∃ (v0 : (c : Dev Cert.KernelIdeal.nD) → Buf (Elt Ideal) ((c.tc : Thread Cert.KernelIdeal.nD Cert.KernelIdeal.τ).loc Cert.KernelIdeal.main_v6)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v6) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v78) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S2048x512 : Shape := ⟨2, ![2048, 512]⟩
abbrev S2048x28x256 : Shape := ⟨3, ![2048, 28, 256]⟩
abbrev S_ : Shape := ⟨0, ![]⟩
abbrev S1024x512 : Shape := ⟨2, ![1024, 512]⟩
abbrev S1024 : Shape := ⟨1, ![1024]⟩
abbrev S3072x1024 : Shape := ⟨2, ![3072, 1024]⟩
abbrev S3072 : Shape := ⟨1, ![3072]⟩

class Facts : Prop where
  bcast_S_S2048x512 : S_.BroadcastsInDim S2048x512 (![] : Fin 0 → Fin S2048x512.rank)
  reducesTo_S2048x512_S_d0_1 : S2048x512.ReducesTo [0, 1] S_
  h_S_ : 0 < S_.numel
  bcast_S_S2048x28x256 : S_.BroadcastsInDim S2048x28x256 (![] : Fin 0 → Fin S2048x28x256.rank)
  reducesTo_S2048x28x256_S_d0_1_2 : S2048x28x256.ReducesTo [0, 1, 2] S_
  reducesTo_S_S_d : S_.ReducesTo [] S_
  bcast_S_S1024x512 : S_.BroadcastsInDim S1024x512 (![] : Fin 0 → Fin S1024x512.rank)
  reducesTo_S1024x512_S_d0_1 : S1024x512.ReducesTo [0, 1] S_
  bcast_S_S1024 : S_.BroadcastsInDim S1024 (![] : Fin 0 → Fin S1024.rank)
  reducesTo_S1024_S_d0 : S1024.ReducesTo [0] S_
  bcast_S_S3072x1024 : S_.BroadcastsInDim S3072x1024 (![] : Fin 0 → Fin S3072x1024.rank)
  reducesTo_S3072x1024_S_d0_1 : S3072x1024.ReducesTo [0, 1] S_
  bcast_S_S3072 : S_.BroadcastsInDim S3072 (![] : Fin 0 → Fin S3072.rank)
  reducesTo_S3072_S_d0 : S3072.ReducesTo [0] S_

variable [Facts]

def fn_part3 {F : FTy → Type} [FloatOps F] (main_v47 : IVec S_ 1) (main_v50 : IVec S1024 1) : IVec S_ 1 :=
  let main_c_19 : IVec S_ 1 := constantI S_ 1 1#1
  let main_v51 : IVec S_ 1 := (fun x v => Host.reduce IntOp.andi x v reducesTo_S1024_S_d0 h_S_) main_v50 main_c_19
  let main_v52 : IVec S_ 1 := andi main_v47 main_v51
  main_v52

def fn_part2 {F : FTy → Type} [FloatOps F] (main_arg8 : FVec F S3072 .f32) (main_arg9 : FVec F S1024 .f32) (main_arg10 : FVec F S1024 .f32) (main_v32 : IVec S_ 1) (main_v33 : FVec F S3072 .f32) : IVec S_ 1 :=
  let main_cst_12 : FVec F S_ .f32 := constant S_ .f32 0x7F800000#32
  let main_v34 : FVec F S3072 .f32 := broadcastInDim S3072 ![] bcast_S_S3072 main_cst_12
  let main_v35 : IVec S3072 1 := cmpf .olt main_v33 main_v34
  let main_c_13 : IVec S_ 1 := constantI S_ 1 1#1
  let main_v36 : IVec S_ 1 := (fun x v => Host.reduce IntOp.andi x v reducesTo_S3072_S_d0 h_S_) main_v35 main_c_13
  let main_v37 : IVec S_ 1 := andi main_v32 main_v36
  let main_v38 : FVec F S3072 .f32 := Host.absf main_arg8
  let main_cst_14 : FVec F S_ .f32 := constant S_ .f32 0x7F800000#32
  let main_v39 : FVec F S3072 .f32 := broadcastInDim S3072 ![] bcast_S_S3072 main_cst_14
  let main_v40 : IVec S3072 1 := cmpf .olt main_v38 main_v39
  let main_c_15 : IVec S_ 1 := constantI S_ 1 1#1
  let main_v41 : IVec S_ 1 := (fun x v => Host.reduce IntOp.andi x v reducesTo_S3072_S_d0 h_S_) main_v40 main_c_15
  let main_v42 : IVec S_ 1 := andi main_v37 main_v41
  let main_v43 : FVec F S1024 .f32 := Host.absf main_arg9
  let main_cst_16 : FVec F S_ .f32 := constant S_ .f32 0x7F800000#32
  let main_v44 : FVec F S1024 .f32 := broadcastInDim S1024 ![] bcast_S_S1024 main_cst_16
  let main_v45 : IVec S1024 1 := cmpf .olt main_v43 main_v44
  let main_c_17 : IVec S_ 1 := constantI S_ 1 1#1
  let main_v46 : IVec S_ 1 := (fun x v => Host.reduce IntOp.andi x v reducesTo_S1024_S_d0 h_S_) main_v45 main_c_17
  let main_v47 : IVec S_ 1 := andi main_v42 main_v46
  let main_v48 : FVec F S1024 .f32 := Host.absf main_arg10
  let main_cst_18 : FVec F S_ .f32 := constant S_ .f32 0x7F800000#32
  let main_v49 : FVec F S1024 .f32 := broadcastInDim S1024 ![] bcast_S_S1024 main_cst_18
  let main_v50 : IVec S1024 1 := cmpf .olt main_v48 main_v49
  fn_part3 (F := F) main_v47 main_v50

def fn_part1 {F : FTy → Type} [FloatOps F] (main_arg4 : FVec F S1024 .f32) (main_arg5 : FVec F S3072x1024 .f32) (main_arg6 : FVec F S3072x1024 .f32) (main_arg7 : FVec F S3072 .f32) (main_arg8 : FVec F S3072 .f32) (main_arg9 : FVec F S1024 .f32) (main_arg10 : FVec F S1024 .f32) (main_v12 : IVec S_ 1) (main_v15 : IVec S1024x512 1) (main_c_5 : IVec S_ 1) : IVec S_ 1 :=
  let main_v16 : IVec S_ 1 := (fun x v => Host.reduce IntOp.andi x v reducesTo_S1024x512_S_d0_1 h_S_) main_v15 main_c_5
  let main_v17 : IVec S_ 1 := andi main_v12 main_v16
  let main_v18 : FVec F S1024 .f32 := Host.absf main_arg4
  let main_cst_6 : FVec F S_ .f32 := constant S_ .f32 0x7F800000#32
  let main_v19 : FVec F S1024 .f32 := broadcastInDim S1024 ![] bcast_S_S1024 main_cst_6
  let main_v20 : IVec S1024 1 := cmpf .olt main_v18 main_v19
  let main_c_7 : IVec S_ 1 := constantI S_ 1 1#1
  let main_v21 : IVec S_ 1 := (fun x v => Host.reduce IntOp.andi x v reducesTo_S1024_S_d0 h_S_) main_v20 main_c_7
  let main_v22 : IVec S_ 1 := andi main_v17 main_v21
  let main_v23 : FVec F S3072x1024 .f32 := Host.absf main_arg5
  let main_cst_8 : FVec F S_ .f32 := constant S_ .f32 0x7F800000#32
  let main_v24 : FVec F S3072x1024 .f32 := broadcastInDim S3072x1024 ![] bcast_S_S3072x1024 main_cst_8
  let main_v25 : IVec S3072x1024 1 := cmpf .olt main_v23 main_v24
  let main_c_9 : IVec S_ 1 := constantI S_ 1 1#1
  let main_v26 : IVec S_ 1 := (fun x v => Host.reduce IntOp.andi x v reducesTo_S3072x1024_S_d0_1 h_S_) main_v25 main_c_9
  let main_v27 : IVec S_ 1 := andi main_v22 main_v26
  let main_v28 : FVec F S3072x1024 .f32 := Host.absf main_arg6
  let main_cst_10 : FVec F S_ .f32 := constant S_ .f32 0x7F800000#32
  let main_v29 : FVec F S3072x1024 .f32 := broadcastInDim S3072x1024 ![] bcast_S_S3072x1024 main_cst_10
  let main_v30 : IVec S3072x1024 1 := cmpf .olt main_v28 main_v29
  let main_c_11 : IVec S_ 1 := constantI S_ 1 1#1
  let main_v31 : IVec S_ 1 := (fun x v => Host.reduce IntOp.andi x v reducesTo_S3072x1024_S_d0_1 h_S_) main_v30 main_c_11
  let main_v32 : IVec S_ 1 := andi main_v27 main_v31
  let main_v33 : FVec F S3072 .f32 := Host.absf main_arg7
  fn_part2 (F := F) main_arg8 main_arg9 main_arg10 main_v32 main_v33

def fn {F : FTy → Type} [FloatOps F] (main_arg0 : FVec F S2048x512 .f32) (main_arg1 : FVec F S2048x28x256 .f32) (main_arg2 : FVec F S_ .f32) (main_arg3 : FVec F S1024x512 .f32) (main_arg4 : FVec F S1024 .f32) (main_arg5 : FVec F S3072x1024 .f32) (main_arg6 : FVec F S3072x1024 .f32) (main_arg7 : FVec F S3072 .f32) (main_arg8 : FVec F S3072 .f32) (main_arg9 : FVec F S1024 .f32) (main_arg10 : FVec F S1024 .f32) : IVec S_ 1 :=
  let main_v0 : FVec F S2048x512 .f32 := Host.absf main_arg0
  let main_cst : FVec F S_ .f32 := constant S_ .f32 0x7F800000#32
  let main_v1 : FVec F S2048x512 .f32 := broadcastInDim S2048x512 ![] bcast_S_S2048x512 main_cst
  let main_v2 : IVec S2048x512 1 := cmpf .olt main_v0 main_v1
  let main_c : IVec S_ 1 := constantI S_ 1 1#1
  let main_v3 : IVec S_ 1 := (fun x v => Host.reduce IntOp.andi x v reducesTo_S2048x512_S_d0_1 h_S_) main_v2 main_c
  let main_v4 : FVec F S2048x28x256 .f32 := Host.absf main_arg1
  let main_cst_0 : FVec F S_ .f32 := constant S_ .f32 0x7F800000#32
  let main_v5 : FVec F S2048x28x256 .f32 := broadcastInDim S2048x28x256 ![] bcast_S_S2048x28x256 main_cst_0
  let main_v6 : IVec S2048x28x256 1 := cmpf .olt main_v4 main_v5
  let main_c_1 : IVec S_ 1 := constantI S_ 1 1#1
  let main_v7 : IVec S_ 1 := (fun x v => Host.reduce IntOp.andi x v reducesTo_S2048x28x256_S_d0_1_2 h_S_) main_v6 main_c_1
  let main_v8 : IVec S_ 1 := andi main_v3 main_v7
  let main_v9 : FVec F S_ .f32 := Host.absf main_arg2
  let main_cst_2 : FVec F S_ .f32 := constant S_ .f32 0x7F800000#32
  let main_v10 : IVec S_ 1 := cmpf .olt main_v9 main_cst_2
  let main_c_3 : IVec S_ 1 := constantI S_ 1 1#1
  let main_v11 : IVec S_ 1 := (fun x v => Host.reduce IntOp.andi x v reducesTo_S_S_d h_S_) main_v10 main_c_3
  let main_v12 : IVec S_ 1 := andi main_v8 main_v11
  let main_v13 : FVec F S1024x512 .f32 := Host.absf main_arg3
  let main_cst_4 : FVec F S_ .f32 := constant S_ .f32 0x7F800000#32
  let main_v14 : FVec F S1024x512 .f32 := broadcastInDim S1024x512 ![] bcast_S_S1024x512 main_cst_4
  let main_v15 : IVec S1024x512 1 := cmpf .olt main_v13 main_v14
  let main_c_5 : IVec S_ 1 := constantI S_ 1 1#1
  fn_part1 (F := F) main_arg4 main_arg5 main_arg6 main_arg7 main_arg8 main_arg9 main_arg10 main_v12 main_v15 main_c_5
-- ==== Kernel.lean ====
abbrev S2048x512 : Shape := ⟨2, ![2048, 512]⟩
abbrev S2048x28x256 : Shape := ⟨3, ![2048, 28, 256]⟩
abbrev S_ : Shape := ⟨0, ![]⟩
abbrev S1024x512 : Shape := ⟨2, ![1024, 512]⟩
abbrev S1024 : Shape := ⟨1, ![1024]⟩
abbrev S3072x1024 : Shape := ⟨2, ![3072, 1024]⟩
abbrev S3072 : Shape := ⟨1, ![3072]⟩
abbrev S28x2048x256 : Shape := ⟨3, ![28, 2048, 256]⟩
abbrev S2048x3072 : Shape := ⟨2, ![2048, 3072]⟩
abbrev S512x512 : Shape := ⟨2, ![512, 512]⟩
abbrev S512x3072 : Shape := ⟨2, ![512, 3072]⟩
abbrev S512x1024 : Shape := ⟨2, ![512, 1024]⟩
abbrev S1x1024 : Shape := ⟨2, ![1, 1024]⟩
abbrev S1x3072 : Shape := ⟨2, ![1, 3072]⟩
abbrev S28x2048x1024 : Shape := ⟨3, ![28, 2048, 1024]⟩
abbrev S1x256x256 : Shape := ⟨3, ![1, 256, 256]⟩
abbrev S256x3072 : Shape := ⟨2, ![256, 3072]⟩
abbrev S1x256x1024 : Shape := ⟨3, ![1, 256, 1024]⟩
abbrev S256x256 : Shape := ⟨2, ![256, 256]⟩
abbrev S256x1024 : Shape := ⟨2, ![256, 1024]⟩
abbrev S256 : Shape := ⟨1, ![256]⟩
abbrev S256x1 : Shape := ⟨2, ![256, 1]⟩

abbrev nBuf : Space → Nat
  | .hbm => 18
  | .vmem => 18
  | .smem => 0
  | _ => 0

abbrev bufTy : (tb : Table) → Fin (tcTables nBuf tb) → BufTy
  | .hbm, ⟨0, _⟩ => ⟨S2048x512, .f32⟩
  | .hbm, ⟨1, _⟩ => ⟨S2048x28x256, .f32⟩
  | .hbm, ⟨2, _⟩ => ⟨S_, .f32⟩
  | .hbm, ⟨3, _⟩ => ⟨S1024x512, .f32⟩
  | .hbm, ⟨4, _⟩ => ⟨S1024, .f32⟩
  | .hbm, ⟨5, _⟩ => ⟨S3072x1024, .f32⟩
  | .hbm, ⟨6, _⟩ => ⟨S3072x1024, .f32⟩
  | .hbm, ⟨7, _⟩ => ⟨S3072, .f32⟩
  | .hbm, ⟨8, _⟩ => ⟨S3072, .f32⟩
  | .hbm, ⟨9, _⟩ => ⟨S1024, .f32⟩
  | .hbm, ⟨10, _⟩ => ⟨S1024, .f32⟩
  | .hbm, ⟨11, _⟩ => ⟨S2048x512, .bf16⟩
  | .hbm, ⟨12, _⟩ => ⟨S1024x512, .bf16⟩
  | .hbm, ⟨13, _⟩ => ⟨S3072x1024, .bf16⟩
  | .hbm, ⟨14, _⟩ => ⟨S3072x1024, .bf16⟩
  | .hbm, ⟨15, _⟩ => ⟨S28x2048x256, .f32⟩
  | .hbm, ⟨16, _⟩ => ⟨S2048x3072, .f32⟩
  | .hbm, ⟨17, _⟩ => ⟨S28x2048x1024, .f32⟩
  | .local _ .vmem, ⟨0, _⟩ => ⟨S512x512, .bf16⟩
  | .local _ .vmem, ⟨1, _⟩ => ⟨S512x512, .bf16⟩
  | .local _ .vmem, ⟨2, _⟩ => ⟨S1024x512, .bf16⟩
  | .local _ .vmem, ⟨3, _⟩ => ⟨S1024, .f32⟩
  | .local _ .vmem, ⟨4, _⟩ => ⟨S3072x1024, .bf16⟩
  | .local _ .vmem, ⟨5, _⟩ => ⟨S3072, .f32⟩
  | .local _ .vmem, ⟨6, _⟩ => ⟨S512x3072, .f32⟩
  | .local _ .vmem, ⟨7, _⟩ => ⟨S512x3072, .f32⟩
  | .local _ .vmem, ⟨8, _⟩ => ⟨S1x256x256, .f32⟩
  | .local _ .vmem, ⟨9, _⟩ => ⟨S1x256x256, .f32⟩
  | .local _ .vmem, ⟨10, _⟩ => ⟨S256x3072, .f32⟩
  | .local _ .vmem, ⟨11, _⟩ => ⟨S256x3072, .f32⟩
  | .local _ .vmem, ⟨12, _⟩ => ⟨S3072x1024, .bf16⟩
  | .local _ .vmem, ⟨13, _⟩ => ⟨S3072, .f32⟩
  | .local _ .vmem, ⟨14, _⟩ => ⟨S1024, .f32⟩
  | .local _ .vmem, ⟨15, _⟩ => ⟨S1024, .f32⟩
  | .local _ .vmem, ⟨16, _⟩ => ⟨S1x256x1024, .f32⟩
  | .local _ .vmem, ⟨17, _⟩ => ⟨S1x256x1024, .f32⟩
  | _, _ => ⟨S2048x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc1_stg0_0 : Ref sig .tc := ⟨.vmem, 8, rfl⟩
abbrev cc1_stg0_1 : Ref sig .tc := ⟨.vmem, 9, rfl⟩
abbrev cc1_stg1_0 : Ref sig .tc := ⟨.vmem, 10, rfl⟩
abbrev cc1_stg1_1 : Ref sig .tc := ⟨.vmem, 11, rfl⟩
abbrev cc1_stg2_0 : Ref sig .tc := ⟨.vmem, 12, rfl⟩
abbrev cc1_stg3_0 : Ref sig .tc := ⟨.vmem, 13, rfl⟩
abbrev cc1_stg4_0 : Ref sig .tc := ⟨.vmem, 14, rfl⟩
abbrev cc1_stg5_0 : Ref sig .tc := ⟨.vmem, 15, rfl⟩
abbrev cc1_stg6_0 : Ref sig .tc := ⟨.vmem, 16, rfl⟩
abbrev cc1_stg6_1 : Ref sig .tc := ⟨.vmem, 17, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7
abbrev cc1_sem0_0 : DmaSem sig := 8
abbrev cc1_sem0_1 : DmaSem sig := 9
abbrev cc1_sem1_0 : DmaSem sig := 10
abbrev cc1_sem1_1 : DmaSem sig := 11
abbrev cc1_sem2_0 : DmaSem sig := 12
abbrev cc1_sem3_0 : DmaSem sig := 13
abbrev cc1_sem4_0 : DmaSem sig := 14
abbrev cc1_sem5_0 : DmaSem sig := 15
abbrev cc1_sem6_0 : DmaSem sig := 16
abbrev cc1_sem6_1 : DmaSem sig := 17

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x512 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S3072x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S3072 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S512x3072 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev grid1 : Pipeline.Grid := ⟨2, ![8, 28], ![false, false]⟩

def cc1_transform_0 (i : grid1.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.subi arg1 c1_i32
  let c0_i32 : BitVec 32 := 0#32
  let v1 : BitVec 32 := Scalar.maxsi v0 c0_i32
  let c0_i32_0 : BitVec 32 := 0#32
  let c0_i32_1 : BitVec 32 := 0#32
  ![v1.toNat, arg0.toNat, c0_i32_0.toNat]

def cc1_transform_1 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc1_transform_4 (i : grid1.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc1_transform_5 (i : grid1.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc1_transform_6 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, arg0.toNat, c0_i32.toNat]

abbrev stage1_0 : Fin 2 → Memref sig .tc .vmem S1x256x256 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true]

abbrev stage1_1 : Fin 2 → Memref sig .tc .vmem S256x3072 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, false]

abbrev stage1_2 : Fin 1 → Memref sig .tc .vmem S3072x1024 .bf16 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false, false]

abbrev stage1_3 : Fin 1 → Memref sig .tc .vmem S3072 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false, false]

abbrev stage1_4 : Fin 1 → Memref sig .tc .vmem S1024 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false, false]

abbrev stage1_5 : Fin 1 → Memref sig .tc .vmem S1024 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false, false]

abbrev stage1_6 : Fin 2 → Memref sig .tc .vmem S1x256x1024 .f32 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true, true]

class Facts₀ : Prop where
  bitsLt_bf16_f32 : FTy.bits .bf16 < FTy.bits .f32
  transposes_S2048x28x256_S28x2048x256_1_0_2 : S2048x28x256.Transposes [1, 0, 2] S28x2048x256
  inb_S512x512_S512x512_0_0 : ∀ a, (![0, 0] : Fin 2 → Nat) a + S512x512.size a ≤ S512x512.size a
  h_S512x512 : 0 < S512x512.numel
  shapeCasts_S512x512_S512x512 : S512x512.ShapeCasts S512x512
  inb_S1024x512_S1024x512_0_0 : ∀ a, (![0, 0] : Fin 2 → Nat) a + S1024x512.size a ≤ S1024x512.size a
  h_S1024x512 : 0 < S1024x512.numel
  shapeCasts_S1024x512_S1024x512 : S1024x512.ShapeCasts S1024x512
  inb_S1024_S1024_0 : ∀ a, (![0] : Fin 1 → Nat) a + S1024.size a ≤ S1024.size a
  h_S1024 : 0 < S1024.numel
  shapeCasts_S1024_S1x1024 : S1024.ShapeCasts S1x1024
  broadcasts_S1x1024_S512x1024 : S1x1024.Broadcasts S512x1024
  inb_S3072x1024_S3072x1024_0_0 : ∀ a, (![0, 0] : Fin 2 → Nat) a + S3072x1024.size a ≤ S3072x1024.size a
  h_S3072x1024 : 0 < S3072x1024.numel
  shapeCasts_S3072x1024_S3072x1024 : S3072x1024.ShapeCasts S3072x1024
  inb_S3072_S3072_0 : ∀ a, (![0] : Fin 1 → Nat) a + S3072.size a ≤ S3072.size a
  h_S3072 : 0 < S3072.numel
  shapeCasts_S3072_S1x3072 : S3072.ShapeCasts S1x3072
  broadcasts_S1x3072_S512x3072 : S1x3072.Broadcasts S512x3072
  inb_S512x3072_S512x3072_0_0 : ∀ a, (![0, 0] : Fin 2 → Nat) a + S512x3072.size a ≤ S512x3072.size a
  h_S512x3072 : 0 < S512x3072.numel
  inb_S1x256x256_S1x256x256_0_0_0 : ∀ a, (![0, 0, 0] : Fin 3 → Nat) a + S1x256x256.size a ≤ S1x256x256.size a
  h_S1x256x256 : 0 < S1x256x256.numel
  shapeCasts_S1x256x256_S256x256 : S1x256x256.ShapeCasts S256x256
  concatenates_S256x256_S256x256_S256x256_S256x256_S256x1024_d1 : Shape.Concatenates [S256x256, S256x256, S256x256, S256x256] S256x1024 1
  broadcasts_S1x3072_S256x3072 : S1x3072.Broadcasts S256x3072
  inb_S256x3072_S256x3072_0_0 : ∀ a, (![0, 0] : Fin 2 → Nat) a + S256x3072.size a ≤ S256x3072.size a
  h_S256x3072 : 0 < S256x3072.numel
  shapeCasts_S256x3072_S256x3072 : S256x3072.ShapeCasts S256x3072
  slices_S256x3072_o0_0_S256x1024 : S256x3072.Slices ![0, 0] S256x1024
  slices_S256x3072_o0_1024_S256x1024 : S256x3072.Slices ![0, 1024] S256x1024
  slices_S256x3072_o0_2048_S256x1024 : S256x3072.Slices ![0, 2048] S256x1024
  reduces_S256x1024_S256 : S256x1024.Reduces [1] S256
  shapeCasts_S256_S256x1 : S256.ShapeCasts S256x1
  broadcasts_S256x1_S256x1024 : S256x1.Broadcasts S256x1024
  broadcasts_S1x1024_S256x1024 : S1x1024.Broadcasts S256x1024
  inb_S1x256x1024_S1x256x1024_0_0_0 : ∀ a, (![0, 0, 0] : Fin 3 → Nat) a + S1x256x1024.size a ≤ S1x256x1024.size a
  h_S1x256x1024 : 0 < S1x256x1024.numel
  shapeCasts_S1x256x1024_S256x1024 : S1x256x1024.ShapeCasts S256x1024
  shapeCasts_S256x1024_S1x256x1024 : S256x1024.ShapeCasts S1x256x1024
  dot_S512x512_S1024x512_S512x1024_1_1_0_0_n_n_wf : DotDims.WF S512x512 S1024x512 S512x1024 [1] [1] [0] [0] [] []
  dot_S512x1024_S3072x1024_S512x3072_1_1_0_0_n_n_wf : DotDims.WF S512x1024 S3072x1024 S512x3072 [1] [1] [0] [0] [] []
  dot_S256x1024_S3072x1024_S256x3072_1_1_0_0_n_n_wf : DotDims.WF S256x1024 S3072x1024 S256x3072 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x512.size a ≤ S2048x512.size a
  hwx0_0 : ∀ i : grid0.Coords, EltTy.bits .bf16 = 32 ∨ (Rect.block (s := S2048x512) S512x512.size (cc0_transform_0 i) (hinb0_0 i)).WholeWords (EltTy.packing .bf16)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S1024x512.size a ≤ S1024x512.size a
  hwx0_1 : ∀ i : grid0.Coords, EltTy.bits .bf16 = 32 ∨ (Rect.block (s := S1024x512) S1024x512.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1024.size a ≤ S1024.size a
  hwx0_2 : ∀ i : grid0.Coords, EltTy.bits .f32 = 32 ∨ (Rect.block (s := S1024) S1024.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S3072x1024.size a ≤ S3072x1024.size a
  hwx0_3 : ∀ i : grid0.Coords, EltTy.bits .bf16 = 32 ∨ (Rect.block (s := S3072x1024) S3072x1024.size (cc0_transform_3 i) (hinb0_3 i)).WholeWords (EltTy.packing .bf16)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S3072.size a ≤ S3072.size a
  hwx0_4 : ∀ i : grid0.Coords, EltTy.bits .f32 = 32 ∨ (Rect.block (s := S3072) S3072.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S512x3072.size a ≤ S2048x3072.size a
  hwx0_5 : ∀ i : grid0.Coords, EltTy.bits .f32 = 32 ∨ (Rect.block (s := S2048x3072) S512x3072.size (cc0_transform_5 i) (hinb0_5 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1x256x256.size a ≤ S28x2048x256.size a
  hwx1_0 : ∀ i : grid1.Coords, EltTy.bits .f32 = 32 ∨ (Rect.block (s := S28x2048x256) S1x256x256.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S256x3072.size a ≤ S2048x3072.size a
  hwx1_1 : ∀ i : grid1.Coords, EltTy.bits .f32 = 32 ∨ (Rect.block (s := S2048x3072) S256x3072.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S3072x1024.size a ≤ S3072x1024.size a
  hwx1_2 : ∀ i : grid1.Coords, EltTy.bits .bf16 = 32 ∨ (Rect.block (s := S3072x1024) S3072x1024.size (cc1_transform_2 i) (hinb1_2 i)).WholeWords (EltTy.packing .bf16)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S3072.size a ≤ S3072.size a
  hwx1_3 : ∀ i : grid1.Coords, EltTy.bits .f32 = 32 ∨ (Rect.block (s := S3072) S3072.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1024.size a ≤ S1024.size a
  hwx1_4 : ∀ i : grid1.Coords, EltTy.bits .f32 = 32 ∨ (Rect.block (s := S1024) S1024.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S1024.size a ≤ S1024.size a
  hwx1_5 : ∀ i : grid1.Coords, EltTy.bits .f32 = 32 ∨ (Rect.block (s := S1024) S1024.size (cc1_transform_5 i) (hinb1_5 i)).WholeWords (EltTy.packing .f32)
  hstage1_6 : ∀ j, (stage1_6 j).IsWhole
  nbuf1_6 : grid1.bufCount reads1_6 false = 2
  hreads1_6 : ∀ i i' : grid1.Coords, (∀ a, reads1_6 a = true → i a = i' a) → cc1_transform_6 i = cc1_transform_6 i'
  hinb1_6 : ∀ (i : grid1.Coords) a, (cc1_transform_6 i a + 1) * S1x256x1024.size a ≤ S28x2048x1024.size a
  hwx1_6 : ∀ i : grid1.Coords, EltTy.bits .f32 = 32 ∨ (Rect.block (s := S28x2048x1024) S1x256x1024.size (cc1_transform_6 i) (hinb1_6 i)).WholeWords (EltTy.packing .f32)

variable [Facts₀]

def dot_S512x512_S1024x512_S512x1024_1_1_0_0_n_n : DotDims S512x512 S1024x512 S512x1024 where
  lhsContracting := [1]
  rhsContracting := [1]
  lhsNonContracting := [0]
  rhsNonContracting := [0]
  lhsBatch := []
  rhsBatch := []
  wf := dot_S512x512_S1024x512_S512x1024_1_1_0_0_n_n_wf
def dot_S512x1024_S3072x1024_S512x3072_1_1_0_0_n_n : DotDims S512x1024 S3072x1024 S512x3072 where
  lhsContracting := [1]
  rhsContracting := [1]
  lhsNonContracting := [0]
  rhsNonContracting := [0]
  lhsBatch := []
  rhsBatch := []
  wf := dot_S512x1024_S3072x1024_S512x3072_1_1_0_0_n_n_wf
def dot_S256x1024_S3072x1024_S256x3072_1_1_0_0_n_n : DotDims S256x1024 S3072x1024 S256x3072 where
  lhsContracting := [1]
  rhsContracting := [1]
  lhsNonContracting := [0]
  rhsNonContracting := [0]
  lhsBatch := []
  rhsBatch := []
  wf := dot_S256x1024_S3072x1024_S256x3072_1_1_0_0_n_n_wf

abbrev win0_0 : Pipeline.Window sig grid0 :=
  Pipeline.Window.ofSpec (Memref.whole main_v0) S512x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S1024x512.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg4) S1024.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v2) S3072x1024.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg7) S3072.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v5) S512x3072.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev win1_0 : Pipeline.Window sig grid1 :=
  Pipeline.Window.ofSpec (Memref.whole main_v4) S1x256x256.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v5) S256x3072.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v3) S3072x1024.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_arg8) S3072.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_arg9) S1024.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_arg10) S1024.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v6) S1x256x1024.size cc1_transform_6 reads1_6 true false 2 stage1_6 sem1_6
    hrank1 hreads1_6 hinb1_6 nbuf1_6 (Memref.isWhole_whole _) hwx1_6 hstage1_6

abbrev win1 : Fin 7 → Pipeline.Window sig grid1 := fun | 0 => win1_0 | 1 => win1_1 | 2 => win1_2 | 3 => win1_3 | 4 => win1_4 | 5 => win1_5 | 6 => win1_6 | ⟨_ + 7, h⟩ => absurd h (Nat.not_lt.2 (Nat.le_add_left _ _))
abbrev spec1 : Fin 7 → Pipeline.WinSpec sig grid1.rank := fun w => (win1 w).toWinSpec

class Facts : Prop extends Facts₀ where

variable [Facts]
-- ==== ReferenceIdeal.lean ====
abbrev S2048x512 : Shape := ⟨2, ![2048, 512]⟩
abbrev S2048x28x256 : Shape := ⟨3, ![2048, 28, 256]⟩
abbrev S_ : Shape := ⟨0, ![]⟩
abbrev S1024x512 : Shape := ⟨2, ![1024, 512]⟩
abbrev S1024 : Shape := ⟨1, ![1024]⟩
abbrev S3072x1024 : Shape := ⟨2, ![3072, 1024]⟩
abbrev S3072 : Shape := ⟨1, ![3072]⟩
abbrev S512x1024 : Shape := ⟨2, ![512, 1024]⟩
abbrev S2048x1024 : Shape := ⟨2, ![2048, 1024]⟩
abbrev S1x1024 : Shape := ⟨2, ![1, 1024]⟩
abbrev S1x2048x1x28x1x256 : Shape := ⟨6, ![1, 2048, 1, 28, 1, 256]⟩
abbrev S1x2048x1x28x4x256 : Shape := ⟨6, ![1, 2048, 1, 28, 4, 256]⟩
abbrev S2048x28x1024 : Shape := ⟨3, ![2048, 28, 1024]⟩
abbrev S28x2048x1024 : Shape := ⟨3, ![28, 2048, 1024]⟩
abbrev S1x2048x1024 : Shape := ⟨3, ![1, 2048, 1024]⟩
abbrev S29x2048x1024 : Shape := ⟨3, ![29, 2048, 1024]⟩
abbrev S1024x3072 : Shape := ⟨2, ![1024, 3072]⟩
abbrev S2048x3072 : Shape := ⟨2, ![2048, 3072]⟩
abbrev S1x3072 : Shape := ⟨2, ![1, 3072]⟩
abbrev S28x2048x3072 : Shape := ⟨3, ![28, 2048, 3072]⟩
abbrev S1x1x3072 : Shape := ⟨3, ![1, 1, 3072]⟩
abbrev S28x2048 : Shape := ⟨2, ![28, 2048]⟩
abbrev S28x2048x1 : Shape := ⟨3, ![28, 2048, 1]⟩
abbrev S1x1x1024 : Shape := ⟨3, ![1, 1, 1024]⟩

abbrev nBuf : Space → Nat
  | .hbm => 101
  | .vmem => 0
  | .smem => 0
  | _ => 0

abbrev bufTy : (tb : Table) → Fin (tcTables nBuf tb) → BufTy
  | .hbm, ⟨0, _⟩ => ⟨S2048x512, .f32⟩
  | .hbm, ⟨1, _⟩ => ⟨S2048x28x256, .f32⟩
  | .hbm, ⟨2, _⟩ => ⟨S_, .f32⟩
  | .hbm, ⟨3, _⟩ => ⟨S1024x512, .f32⟩
  | .hbm, ⟨4, _⟩ => ⟨S1024, .f32⟩
  | .hbm, ⟨5, _⟩ => ⟨S3072x1024, .f32⟩
  | .hbm, ⟨6, _⟩ => ⟨S3072x1024, .f32⟩
  | .hbm, ⟨7, _⟩ => ⟨S3072, .f32⟩
  | .hbm, ⟨8, _⟩ => ⟨S3072, .f32⟩
  | .hbm, ⟨9, _⟩ => ⟨S1024, .f32⟩
  | .hbm, ⟨10, _⟩ => ⟨S1024, .f32⟩
  | .hbm, ⟨11, _⟩ => ⟨S512x1024, .f32⟩
  | .hbm, ⟨12, _⟩ => ⟨S2048x1024, .f32⟩
  | .hbm, ⟨13, _⟩ => ⟨S1x1024, .f32⟩
  | .hbm, ⟨14, _⟩ => ⟨S2048x1024, .f32⟩
  | .hbm, ⟨15, _⟩ => ⟨S2048x1024, .f32⟩
  | .hbm, ⟨16, _⟩ => ⟨S1x2048x1x28x1x256, .f32⟩
  | .hbm, ⟨17, _⟩ => ⟨S1x2048x1x28x4x256, .f32⟩
  | .hbm, ⟨18, _⟩ => ⟨S2048x28x1024, .f32⟩
  | .hbm, ⟨19, _⟩ => ⟨S28x2048x1024, .f32⟩
  | .hbm, ⟨20, _⟩ => ⟨S_, .f32⟩
  | .hbm, ⟨21, _⟩ => ⟨S1x2048x1024, .f32⟩
  | .hbm, ⟨22, _⟩ => ⟨S29x2048x1024, .f32⟩
  | .hbm, ⟨23, _⟩ => ⟨S28x2048x1024, .f32⟩
  | .hbm, ⟨24, _⟩ => ⟨S1024x3072, .f32⟩
  | .hbm, ⟨25, _⟩ => ⟨S2048x3072, .f32⟩
  | .hbm, ⟨26, _⟩ => ⟨S1x3072, .f32⟩
  | .hbm, ⟨27, _⟩ => ⟨S2048x3072, .f32⟩
  | .hbm, ⟨28, _⟩ => ⟨S2048x3072, .f32⟩
  | .hbm, ⟨29, _⟩ => ⟨S28x2048x3072, .f32⟩
  | .hbm, ⟨30, _⟩ => ⟨S1x1x3072, .f32⟩
  | .hbm, ⟨31, _⟩ => ⟨S28x2048x3072, .f32⟩
  | .hbm, ⟨32, _⟩ => ⟨S28x2048x3072, .f32⟩
  | .hbm, ⟨33, _⟩ => ⟨S2048x1024, .f32⟩
  | .hbm, ⟨34, _⟩ => ⟨S2048x1024, .f32⟩
  | .hbm, ⟨35, _⟩ => ⟨S2048x1024, .f32⟩
  | .hbm, ⟨36, _⟩ => ⟨S28x2048x1024, .f32⟩
  | .hbm, ⟨37, _⟩ => ⟨S28x2048x1024, .f32⟩
  | .hbm, ⟨38, _⟩ => ⟨S28x2048x1024, .f32⟩
  | .hbm, ⟨39, _⟩ => ⟨S1x2048x1024, .f32⟩
  | .hbm, ⟨40, _⟩ => ⟨S28x2048x1024, .f32⟩
  | .hbm, ⟨41, _⟩ => ⟨S28x2048x1024, .f32⟩
  | .hbm, ⟨42, _⟩ => ⟨S28x2048x1024, .f32⟩
  | .hbm, ⟨43, _⟩ => ⟨S28x2048x1024, .f32⟩
  | .hbm, ⟨44, _⟩ => ⟨S_, .f32⟩
  | .hbm, ⟨45, _⟩ => ⟨S28x2048x1024, .f32⟩
  | .hbm, ⟨46, _⟩ => ⟨S28x2048x1024, .f32⟩
  | .hbm, ⟨47, _⟩ => ⟨S_, .f32⟩
  | .hbm, ⟨48, _⟩ => ⟨S28x2048x1024, .f32⟩
  | .hbm, ⟨49, _⟩ => ⟨S28x2048x1024, .f32⟩
  | .hbm, ⟨50, _⟩ => ⟨S1x2048x1024, .f32⟩
  | .hbm, ⟨51, _⟩ => ⟨S28x2048x1024, .f32⟩
  | .hbm, ⟨52, _⟩ => ⟨S28x2048x1024, .f32⟩
  | .hbm, ⟨53, _⟩ => ⟨S28x2048x1024, .f32⟩
  | .hbm, ⟨54, _⟩ => ⟨S28x2048x1024, .f32⟩
  | .hbm, ⟨55, _⟩ => ⟨S_, .f32⟩
  | .hbm, ⟨56, _⟩ => ⟨S28x2048x1024, .f32⟩
  | .hbm, ⟨57, _⟩ => ⟨S28x2048x1024, .f32⟩
  | .hbm, ⟨58, _⟩ => ⟨S_, .f32⟩
  | .hbm, ⟨59, _⟩ => ⟨S28x2048x1024, .f32⟩
  | .hbm, ⟨60, _⟩ => ⟨S28x2048x1024, .f32⟩
  | .hbm, ⟨61, _⟩ => ⟨S28x2048x1024, .f32⟩
  | .hbm, ⟨62, _⟩ => ⟨S1x2048x1024, .f32⟩
  | .hbm, ⟨63, _⟩ => ⟨S28x2048x1024, .f32⟩
  | .hbm, ⟨64, _⟩ => ⟨S28x2048x1024, .f32⟩
  | .hbm, ⟨65, _⟩ => ⟨S28x2048x1024, .f32⟩
  | .hbm, ⟨66, _⟩ => ⟨S_, .f32⟩
  | .hbm, ⟨67, _⟩ => ⟨S28x2048x1024, .f32⟩
  | .hbm, ⟨68, _⟩ => ⟨S28x2048x1024, .f32⟩
  | .hbm, ⟨69, _⟩ => ⟨S28x2048x1024, .f32⟩
  | .hbm, ⟨70, _⟩ => ⟨S28x2048x1024, .f32⟩
  | .hbm, ⟨71, _⟩ => ⟨S28x2048x1024, .f32⟩
  | .hbm, ⟨72, _⟩ => ⟨S_, .f32⟩
  | .hbm, ⟨73, _⟩ => ⟨S28x2048, .f32⟩
  | .hbm, ⟨74, _⟩ => ⟨S28x2048x1, .f32⟩
  | .hbm, ⟨75, _⟩ => ⟨S_, .f32⟩
  | .hbm, ⟨76, _⟩ => ⟨S28x2048x1, .f32⟩
  | .hbm, ⟨77, _⟩ => ⟨S28x2048x1, .f32⟩
  | .hbm, ⟨78, _⟩ => ⟨S28x2048x1024, .f32⟩
  | .hbm, ⟨79, _⟩ => ⟨S28x2048x1024, .f32⟩
  | .hbm, ⟨80, _⟩ => ⟨S28x2048x1024, .f32⟩
  | .hbm, ⟨81, _⟩ => ⟨S_, .f32⟩
  | .hbm, ⟨82, _⟩ => ⟨S28x2048, .f32⟩
  | .hbm, ⟨83, _⟩ => ⟨S28x2048x1, .f32⟩
  | .hbm, ⟨84, _⟩ => ⟨S_, .f32⟩
  | .hbm, ⟨85, _⟩ => ⟨S28x2048x1, .f32⟩
  | .hbm, ⟨86, _⟩ => ⟨S28x2048x1, .f32⟩
  | .hbm, ⟨87, _⟩ => ⟨S28x2048x1024, .f32⟩
  | .hbm, ⟨88, _⟩ => ⟨S28x2048x1024, .f32⟩
  | .hbm, ⟨89, _⟩ => ⟨S_, .f32⟩
  | .hbm, ⟨90, _⟩ => ⟨S28x2048x1, .f32⟩
  | .hbm, ⟨91, _⟩ => ⟨S28x2048x1, .f32⟩
  | .hbm, ⟨92, _⟩ => ⟨S28x2048x1, .f32⟩
  | .hbm, ⟨93, _⟩ => ⟨S28x2048x1024, .f32⟩
  | .hbm, ⟨94, _⟩ => ⟨S28x2048x1024, .f32⟩
  | .hbm, ⟨95, _⟩ => ⟨S1x1x1024, .f32⟩
  | .hbm, ⟨96, _⟩ => ⟨S28x2048x1024, .f32⟩
  | .hbm, ⟨97, _⟩ => ⟨S28x2048x1024, .f32⟩
  | .hbm, ⟨98, _⟩ => ⟨S1x1x1024, .f32⟩
  | .hbm, ⟨99, _⟩ => ⟨S28x2048x1024, .f32⟩
  | .hbm, ⟨100, _⟩ => ⟨S28x2048x1024, .f32⟩
  | _, _ => ⟨S2048x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_cst : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_cst_0 : Ref sig .tc := ⟨.hbm, 44, rfl⟩
abbrev main_v32 : Ref sig .tc := ⟨.hbm, 45, rfl⟩
abbrev main_v33 : Ref sig .tc := ⟨.hbm, 46, rfl⟩
abbrev main_cst_1 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_cst_2 : Ref sig .tc := ⟨.hbm, 55, rfl⟩
abbrev main_v41 : Ref sig .tc := ⟨.hbm, 56, rfl⟩
abbrev main_v42 : Ref sig .tc := ⟨.hbm, 57, rfl⟩
abbrev main_cst_3 : Ref sig .tc := ⟨.hbm, 58, rfl⟩
abbrev main_v43 : Ref sig .tc := ⟨.hbm, 59, rfl⟩
abbrev main_v44 : Ref sig .tc := ⟨.hbm, 60, rfl⟩
abbrev main_v45 : Ref sig .tc := ⟨.hbm, 61, rfl⟩
abbrev main_v46 : Ref sig .tc := ⟨.hbm, 62, rfl⟩
abbrev main_v47 : Ref sig .tc := ⟨.hbm, 63, rfl⟩
abbrev main_v48 : Ref sig .tc := ⟨.hbm, 64, rfl⟩
abbrev main_v49 : Ref sig .tc := ⟨.hbm, 65, rfl⟩
abbrev main_cst_4 : Ref sig .tc := ⟨.hbm, 66, rfl⟩
abbrev main_v50 : Ref sig .tc := ⟨.hbm, 67, rfl⟩
abbrev main_v51 : Ref sig .tc := ⟨.hbm, 68, rfl⟩
abbrev main_v52 : Ref sig .tc := ⟨.hbm, 69, rfl⟩
abbrev main_v53 : Ref sig .tc := ⟨.hbm, 70, rfl⟩
abbrev main_v54 : Ref sig .tc := ⟨.hbm, 71, rfl⟩
abbrev main_cst_5 : Ref sig .tc := ⟨.hbm, 72, rfl⟩
abbrev main_v55 : Ref sig .tc := ⟨.hbm, 73, rfl⟩
abbrev main_v56 : Ref sig .tc := ⟨.hbm, 74, rfl⟩
abbrev main_cst_6 : Ref sig .tc := ⟨.hbm, 75, rfl⟩
abbrev main_v57 : Ref sig .tc := ⟨.hbm, 76, rfl⟩
abbrev main_v58 : Ref sig .tc := ⟨.hbm, 77, rfl⟩
abbrev main_v59 : Ref sig .tc := ⟨.hbm, 78, rfl⟩
abbrev main_v60 : Ref sig .tc := ⟨.hbm, 79, rfl⟩
abbrev main_v61 : Ref sig .tc := ⟨.hbm, 80, rfl⟩
abbrev main_cst_7 : Ref sig .tc := ⟨.hbm, 81, rfl⟩
abbrev main_v62 : Ref sig .tc := ⟨.hbm, 82, rfl⟩
abbrev main_v63 : Ref sig .tc := ⟨.hbm, 83, rfl⟩
abbrev main_cst_8 : Ref sig .tc := ⟨.hbm, 84, rfl⟩
abbrev main_v64 : Ref sig .tc := ⟨.hbm, 85, rfl⟩
abbrev main_v65 : Ref sig .tc := ⟨.hbm, 86, rfl⟩
abbrev main_v66 : Ref sig .tc := ⟨.hbm, 87, rfl⟩
abbrev main_v67 : Ref sig .tc := ⟨.hbm, 88, rfl⟩
abbrev main_cst_9 : Ref sig .tc := ⟨.hbm, 89, rfl⟩
abbrev main_v68 : Ref sig .tc := ⟨.hbm, 90, rfl⟩
abbrev main_v69 : Ref sig .tc := ⟨.hbm, 91, rfl⟩
abbrev main_v70 : Ref sig .tc := ⟨.hbm, 92, rfl⟩
abbrev main_v71 : Ref sig .tc := ⟨.hbm, 93, rfl⟩
abbrev main_v72 : Ref sig .tc := ⟨.hbm, 94, rfl⟩
abbrev main_v73 : Ref sig .tc := ⟨.hbm, 95, rfl⟩
abbrev main_v74 : Ref sig .tc := ⟨.hbm, 96, rfl⟩
abbrev main_v75 : Ref sig .tc := ⟨.hbm, 97, rfl⟩
abbrev main_v76 : Ref sig .tc := ⟨.hbm, 98, rfl⟩
abbrev main_v77 : Ref sig .tc := ⟨.hbm, 99, rfl⟩
abbrev main_v78 : Ref sig .tc := ⟨.hbm, 100, rfl⟩

abbrev nD : Nat := 1
abbrev τ : Topo := Topo.v7x

variable {F : FTy → Type} [FloatOps F]

class Facts₀ : Prop where
  transposes_S1024x512_S512x1024_1_0 : S1024x512.Transposes [1, 0] S512x1024
  bcast_S1024_S1x1024_1 : S1024.BroadcastsInDim S1x1024 (![1] : Fin 1 → Fin S1x1024.rank)
  bcast_S1x1024_S2048x1024_0_1 : S1x1024.BroadcastsInDim S2048x1024 (![0, 1] : Fin 2 → Fin S2048x1024.rank)
  shapeCasts_S2048x28x256_S1x2048x1x28x1x256 : S2048x28x256.ShapeCasts S1x2048x1x28x1x256
  bcast_S1x2048x1x28x1x256_S1x2048x1x28x4x256_0_1_2_3_4_5 : S1x2048x1x28x1x256.BroadcastsInDim S1x2048x1x28x4x256 (![0, 1, 2, 3, 4, 5] : Fin 6 → Fin S1x2048x1x28x4x256.rank)
  shapeCasts_S1x2048x1x28x4x256_S2048x28x1024 : S1x2048x1x28x4x256.ShapeCasts S2048x28x1024
  transposes_S2048x28x1024_S28x2048x1024_1_0_2 : S2048x28x1024.Transposes [1, 0, 2] S28x2048x1024
  bcast_S_S1x2048x1024 : S_.BroadcastsInDim S1x2048x1024 (![] : Fin 0 → Fin S1x2048x1024.rank)
  concatenates_S1x2048x1024_S28x2048x1024_S29x2048x1024_d0 : Shape.Concatenates [S1x2048x1024, S28x2048x1024] S29x2048x1024 0
  slices_S29x2048x1024_S28x2048x1024_0_0_0 : S29x2048x1024.Slices ![0, 0, 0] S28x2048x1024
  transposes_S3072x1024_S1024x3072_1_0 : S3072x1024.Transposes [1, 0] S1024x3072
  bcast_S3072_S1x3072_1 : S3072.BroadcastsInDim S1x3072 (![1] : Fin 1 → Fin S1x3072.rank)
  bcast_S1x3072_S2048x3072_0_1 : S1x3072.BroadcastsInDim S2048x3072 (![0, 1] : Fin 2 → Fin S2048x3072.rank)
  bcast_S3072_S1x1x3072_2 : S3072.BroadcastsInDim S1x1x3072 (![2] : Fin 1 → Fin S1x1x3072.rank)
  bcast_S1x1x3072_S28x2048x3072_0_1_2 : S1x1x3072.BroadcastsInDim S28x2048x3072 (![0, 1, 2] : Fin 3 → Fin S28x2048x3072.rank)
  slices_S2048x3072_S2048x1024_0_0 : S2048x3072.Slices ![0, 0] S2048x1024
  slices_S2048x3072_S2048x1024_0_1024 : S2048x3072.Slices ![0, 1024] S2048x1024
  slices_S2048x3072_S2048x1024_0_2048 : S2048x3072.Slices ![0, 2048] S2048x1024
  slices_S28x2048x3072_S28x2048x1024_0_0_0 : S28x2048x3072.Slices ![0, 0, 0] S28x2048x1024
  slices_S28x2048x3072_S28x2048x1024_0_0_1024 : S28x2048x3072.Slices ![0, 0, 1024] S28x2048x1024
  slices_S28x2048x3072_S28x2048x1024_0_0_2048 : S28x2048x3072.Slices ![0, 0, 2048] S28x2048x1024
  bcast_S2048x1024_S1x2048x1024_1_2 : S2048x1024.BroadcastsInDim S1x2048x1024 (![1, 2] : Fin 2 → Fin S1x2048x1024.rank)
  bcast_S1x2048x1024_S28x2048x1024_0_1_2 : S1x2048x1024.BroadcastsInDim S28x2048x1024 (![0, 1, 2] : Fin 3 → Fin S28x2048x1024.rank)
  bcast_S_S28x2048x1024 : S_.BroadcastsInDim S28x2048x1024 (![] : Fin 0 → Fin S28x2048x1024.rank)
  reducesTo_S28x2048x1024_S28x2048_d2 : S28x2048x1024.ReducesTo [2] S28x2048
  h_S_ : 0 < S_.numel
  bcast_S28x2048_S28x2048x1_0_1 : S28x2048.BroadcastsInDim S28x2048x1 (![0, 1] : Fin 2 → Fin S28x2048x1.rank)
  bcast_S_S28x2048x1 : S_.BroadcastsInDim S28x2048x1 (![] : Fin 0 → Fin S28x2048x1.rank)
  bcast_S28x2048x1_S28x2048x1024_0_1_2 : S28x2048x1.BroadcastsInDim S28x2048x1024 (![0, 1, 2] : Fin 3 → Fin S28x2048x1024.rank)
  bcast_S1024_S1x1x1024_2 : S1024.BroadcastsInDim S1x1x1024 (![2] : Fin 1 → Fin S1x1x1024.rank)
  bcast_S1x1x1024_S28x2048x1024_0_1_2 : S1x1x1024.BroadcastsInDim S28x2048x1024 (![0, 1, 2] : Fin 3 → Fin S28x2048x1024.rank)
  dot_S2048x512_S512x1024_S2048x1024_1_0_0_1_n_n_wf : DotDims.WF S2048x512 S512x1024 S2048x1024 [1] [0] [0] [1] [] []
  dot_S2048x1024_S1024x3072_S2048x3072_1_0_0_1_n_n_wf : DotDims.WF S2048x1024 S1024x3072 S2048x3072 [1] [0] [0] [1] [] []
  dot_S28x2048x1024_S3072x1024_S28x2048x3072_2_1_01_0_n_n_wf : DotDims.WF S28x2048x1024 S3072x1024 S28x2048x3072 [2] [1] [0, 1] [0] [] []

variable [Facts₀]

def dot_S2048x512_S512x1024_S2048x1024_1_0_0_1_n_n : DotDims S2048x512 S512x1024 S2048x1024 where
  lhsContracting := [1]
  rhsContracting := [0]
  lhsNonContracting := [0]
  rhsNonContracting := [1]
  lhsBatch := []
  rhsBatch := []
  wf := dot_S2048x512_S512x1024_S2048x1024_1_0_0_1_n_n_wf
def dot_S2048x1024_S1024x3072_S2048x3072_1_0_0_1_n_n : DotDims S2048x1024 S1024x3072 S2048x3072 where
  lhsContracting := [1]
  rhsContracting := [0]
  lhsNonContracting := [0]
  rhsNonContracting := [1]
  lhsBatch := []
  rhsBatch := []
  wf := dot_S2048x1024_S1024x3072_S2048x3072_1_0_0_1_n_n_wf
def dot_S28x2048x1024_S3072x1024_S28x2048x3072_2_1_01_0_n_n : DotDims S28x2048x1024 S3072x1024 S28x2048x3072 where
  lhsContracting := [2]
  rhsContracting := [1]
  lhsNonContracting := [0, 1]
  rhsNonContracting := [0]
  lhsBatch := []
  rhsBatch := []
  wf := dot_S28x2048x1024_S3072x1024_S28x2048x3072_2_1_01_0_n_n_wf

class Facts : Prop extends Facts₀ where

variable [Facts]
-- ==== Proof.KernelRun.lean ====
/-
  The idealized kernel's run with its result named.

  Every weakly fair execution of @main terminates without a fault; at the end the argument arrays are as launched and the
  result array holds what the second region's write-backs leave of the array that region was entered with: the contents
  `(dat1 (V2 m ρ) c).arrAt 6 cfg1.N` of the frame's proof data, region 1 entered from region 0's exit contents `V2`. The launch
  is the frame certificate's own (the segments, the thread state, the final read of every unscoped buffer against the last
  boundary's contents `W3`); the result buffer is one more unscoped buffer read there, and at `W3` it is region 1's output
  array (`W3_arr`).
-/
import proofs.«136537_j72421738545905_1_alg».proof.Proof.FrameKernelIdeal

set_option maxRecDepth 16384

noncomputable section

namespace Cert.KernelIdeal.GenP

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- The run, at any float instance: the result array at region 1's final output array, the arguments as launched. -/
theorem run_named : θ_run defs (onTc (τ := τ) (main (F := F))) ⟨m, fun _ => 0, ρ⟩ (fun r => ∀ c : Dev nD,
      r.2.mem ((c.tc : Thread nD τ).loc main_v6) = (dat1 (V2 m ρ) c).arrAt 6 cfg1.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W3 m ρ c b)
    (hfin := fun c s' => by
      iintro ⟨⟨Hh, -⟩, HSI⟩
      unfold StableHlo.held
      imodintro
      iapply (pointsTo_read_all (Pipeline.ucRefs τ sig) (fun b => (((c : Thread nD τ)).1, b)) (W3 m ρ c) s')
      isplitl [Hh] <;> iassumption)
    (hQ := fun s h c =>
      ⟨(h c _ (mem_uc main_v6 (by decide))).trans (W3_arr m ρ c 6),
       (h c _ (mem_uc main_arg0 (by decide))).trans (W3_main_arg0 m ρ c),
       (h c _ (mem_uc main_arg1 (by decide))).trans (W3_main_arg1 m ρ c),
       (h c _ (mem_uc main_arg2 (by decide))).trans (W3_main_arg2 m ρ c),
       (h c _ (mem_uc main_arg3 (by decide))).trans (W3_main_arg3 m ρ c),
       (h c _ (mem_uc main_arg4 (by decide))).trans (W3_main_arg4 m ρ c),
       (h c _ (mem_uc main_arg5 (by decide))).trans (W3_main_arg5 m ρ c),
       (h c _ (mem_uc main_arg6 (by decide))).trans (W3_main_arg6 m ρ c),
       (h c _ (mem_uc main_arg7 (by decide))).trans (W3_main_arg7 m ρ c),
       (h c _ (mem_uc main_arg8 (by decide))).trans (W3_main_arg8 m ρ c),
       (h c _ (mem_uc main_arg9 (by decide))).trans (W3_main_arg9 m ρ c),
       (h c _ (mem_uc main_arg10 (by decide))).trans (W3_main_arg10 m ρ c)⟩)

end Cert.KernelIdeal.GenP

end
-- ==== Proof.LibRowProduct.lean ====
/-
  A product of two matrices contracted along their rows, into a zero accumulator, read at one entry.

  For a matrix `l` of shape `[M, K]` and a matrix `r` of shape `[N, K]`, each contracted over its SECOND axis (the product
  `l · rᵀ`, the form a weight stored as [out, in] is applied in), the entry `(p, c)` on the extended reals is
  `∑ k, l[p, k] · r[c, k]`: the accumulator contributes the real `0`, the contraction index has a single axis of extent `K`
  and is traded for its one coordinate `k`, and the operand indices at the output index `(p, c)` and contraction
  coordinate `k` are `(p, k)` and `(c, k)`.

  The dimension numbers enter only through six facts, which a caller proves for its own record: the contraction shape has
  rank one (`hr`) and extent `K` (`hs`), and the four coordinates of the two operand indices (`hl0`, `hl1`, `hr0`, `hr1`).
  The operands' float formats are arbitrary.
-/
import Idealize.ShloMosaic.Lib.ValueIdx
import Idealize.ShloMosaic.PureOps.Ideal.Laws

noncomputable section

namespace Cert.RowProduct

open Idealize.ShloMosaic Idealize.ShloMosaic.ValueIdx

/-- Entry `(p, c)` of an `[M, K]` by `[N, K]` product over the second axes, into the zero accumulator, is
    `∑ k, l[p, k] · r[c, k]`, for any dimension numbers `D` whose contraction has the one axis of extent `K` and whose operand
    indices read `(p, k)` and `(c, k)`. -/
theorem matmul_zero_entry {M K N : ℕ} (D : DotDims ⟨2, ![M, K]⟩ ⟨2, ![N, K]⟩ ⟨2, ![M, N]⟩)
    (hr : D.contr.rank = 1) (hs : D.contr.size ⟨0, by omega⟩ = K)
    (hl0 : ∀ (j : (⟨2, ![M, N]⟩ : Shape).Idx) (q : D.contr.Idx), (D.lhsIdx j q (0 : Fin 2)).val = (j (0 : Fin 2)).val)
    (hl1 : ∀ (j : (⟨2, ![M, N]⟩ : Shape).Idx) (q : D.contr.Idx), (D.lhsIdx j q (1 : Fin 2)).val = (q ⟨0, by omega⟩).val)
    (hr0 : ∀ (j : (⟨2, ![M, N]⟩ : Shape).Idx) (q : D.contr.Idx), (D.rhsIdx j q (0 : Fin 2)).val = (j (1 : Fin 2)).val)
    (hr1 : ∀ (j : (⟨2, ![M, N]⟩ : Shape).Idx) (q : D.contr.Idx), (D.rhsIdx j q (1 : Fin 2)).val = (q ⟨0, by omega⟩).val)
    {φ₁ φ₂ : FTy} (l : FVec Ideal ⟨2, ![M, K]⟩ φ₁) (r : FVec Ideal ⟨2, ![N, K]⟩ φ₂) (p : Fin M) (c : Fin N) :
    FloatOps.matmul D none l r (constant (F := Ideal) ⟨2, ![M, N]⟩ .f32 0x00000000#32) (ix2 p c)
      = ∑ k : Fin K, l (ix2 p k) * r (ix2 c k) := by
  rw [Ideal.matmul_constant_zero_apply, ← Equiv.sum_comp (contrEquiv1 D K hr hs).symm]
  refine Finset.sum_congr rfl fun k _ => ?_
  have hk := contrEquiv1_symm_val D K hr hs k
  have el : D.lhsIdx (ix2 p c) ((contrEquiv1 D K hr hs).symm k) = ix2 p k :=
    funext fun a => Fin.ext (by
      match a with
      | ⟨0, _⟩ => exact hl0 (ix2 p c) _
      | ⟨1, _⟩ => exact (hl1 (ix2 p c) _).trans hk)
  have er : D.rhsIdx (ix2 p c) ((contrEquiv1 D K hr hs).symm k) = ix2 c k :=
    funext fun a => Fin.ext (by
      match a with
      | ⟨0, _⟩ => exact hr0 (ix2 p c) _
      | ⟨1, _⟩ => exact (hr1 (ix2 p c) _).trans hk)
  rw [el, er]

end Cert.RowProduct

end
-- ==== Proof.GiPayload.lean ====
/-
  The first kernel's stored value, read at one entry.

  The body stores, for its 512 rows of `z`, the input gates' pre-activations: with the loaded blocks `x0 : [512, 512]` (rows of
  `z`), `x1 : [1024, 512]` (`fcw`), `x2 : [1024]` (`fcb`), `x3 : [3072, 1024]` (`wih`) and `x4 : [3072]` (`bih`), entry `(p, e)` is

      (∑ k, ((∑ j, x0[p, j] · x1[k, j]) + x2[k]) · x3[e, k]) + x4[e]

  on the extended reals: each matrix product contracts both operands along their second axis into a zero accumulator, a
  change of float format is the identity, and a bias vector is cast to one row and that row repeated down the block.
-/
import proofs.«136537_j72421738545905_1_alg».proof.Proof.Gen.KernelIdeal.Skeleton
import proofs.«136537_j72421738545905_1_alg».proof.Proof.LibRowProduct
import Idealize.ShloMosaic.Lib.ValueLayout
import Idealize.ShloMosaic.Lib.Pipeline.Value
import Idealize.ShloMosaic.Lib.ValueIdx
import Idealize.ShloMosaic.PureOps.Ideal.Laws

noncomputable section

namespace Cert.KernelIdeal.GiValue

open Cert.KernelIdeal Cert.KernelIdeal.Gen Idealize.ShloMosaic Idealize.ShloMosaic.ValueIdx
open scoped BigOperators

/-- The two products' dimension numbers. -/
abbrev Dx := dot_S512x512_S1024x512_S512x1024_1_1_0_0_n_n
abbrev Dg := dot_S512x1024_S3072x1024_S512x3072_1_1_0_0_n_n

/-! ### Where the products read their operands -/

theorem dx_l0 (j : S512x1024.Idx) (q : Dx.contr.Idx) : (Dx.lhsIdx j q (0 : Fin 2)).val = (j (0 : Fin 2)).val := by
  unfold DotDims.lhsIdx
  rw [dif_neg (show ¬(0 : Fin S512x512.rank) ∈ Dx.lhsBatch by decide), dif_pos (show (0 : Fin S512x512.rank) ∈ Dx.lhsNonContracting by decide)]
  rfl
theorem dx_l1 (j : S512x1024.Idx) (q : Dx.contr.Idx) : (Dx.lhsIdx j q (1 : Fin 2)).val = (q ⟨0, by decide⟩).val :=
  Dx.lhsIdx_val_of_single rfl j q
theorem dx_r0 (j : S512x1024.Idx) (q : Dx.contr.Idx) : (Dx.rhsIdx j q (0 : Fin 2)).val = (j (1 : Fin 2)).val := by
  unfold DotDims.rhsIdx
  rw [dif_neg (show ¬(0 : Fin S1024x512.rank) ∈ Dx.rhsBatch by decide), dif_pos (show (0 : Fin S1024x512.rank) ∈ Dx.rhsNonContracting by decide)]
  rfl
theorem dx_r1 (j : S512x1024.Idx) (q : Dx.contr.Idx) : (Dx.rhsIdx j q (1 : Fin 2)).val = (q ⟨0, by decide⟩).val :=
  Dx.rhsIdx_val_of_single rfl j q

theorem dg_l0 (j : S512x3072.Idx) (q : Dg.contr.Idx) : (Dg.lhsIdx j q (0 : Fin 2)).val = (j (0 : Fin 2)).val := by
  unfold DotDims.lhsIdx
  rw [dif_neg (show ¬(0 : Fin S512x1024.rank) ∈ Dg.lhsBatch by decide), dif_pos (show (0 : Fin S512x1024.rank) ∈ Dg.lhsNonContracting by decide)]
  rfl
theorem dg_l1 (j : S512x3072.Idx) (q : Dg.contr.Idx) : (Dg.lhsIdx j q (1 : Fin 2)).val = (q ⟨0, by decide⟩).val :=
  Dg.lhsIdx_val_of_single rfl j q
theorem dg_r0 (j : S512x3072.Idx) (q : Dg.contr.Idx) : (Dg.rhsIdx j q (0 : Fin 2)).val = (j (1 : Fin 2)).val := by
  unfold DotDims.rhsIdx
  rw [dif_neg (show ¬(0 : Fin S3072x1024.rank) ∈ Dg.rhsBatch by decide), dif_pos (show (0 : Fin S3072x1024.rank) ∈ Dg.rhsNonContracting by decide)]
  rfl
theorem dg_r1 (j : S512x3072.Idx) (q : Dg.contr.Idx) : (Dg.rhsIdx j q (1 : Fin 2)).val = (q ⟨0, by decide⟩).val :=
  Dg.rhsIdx_val_of_single rfl j q

/-! ### The stored value at an entry -/

/-- Entry `(p, e)` of the block the first kernel stores. -/
theorem gi_entry (x0 : FVec Ideal S512x512 .bf16) (x1 : FVec Ideal S1024x512 .bf16) (x2 : FVec Ideal S1024 .f32)
    (x3 : FVec Ideal S3072x1024 .bf16) (x4 : FVec Ideal S3072 .f32) (p : Fin 512) (e : Fin 3072) :
    k0_pay1 (F := Ideal) x0 x1 x2 x3 x4 (ix2 p e)
      = (∑ k : Fin 1024, ((∑ j : Fin 512, x0 (ix2 p j) * x1 (ix2 k j)) + x2 (ix1 k)) * x3 (ix2 e k)) + x4 (ix1 e) := by
  unfold k0_pay1
  rw [shapeCast_self, shapeCast_self, shapeCast_self, addf_apply]
  refine congrArg₂ (· + ·) ?_ ?_
  · refine (Cert.RowProduct.matmul_zero_entry Dg rfl rfl dg_l0 dg_l1 dg_r0 dg_r1 _ x3 p e).trans ?_
    refine Finset.sum_congr rfl fun k _ => ?_
    refine congrArg (· * x3 (ix2 e k)) ?_
    rw [truncf_apply, addf_apply]
    refine congrArg₂ (· + ·) ?_ ?_
    · exact Cert.RowProduct.matmul_zero_entry Dx rfl rfl dx_l0 dx_l1 dx_r0 dx_r1 x0 x1 p k
    · rw [broadcastTo_1b_ab_apply, shapeCast_a_1a_apply]
  · rw [broadcastTo_1b_ab_apply, shapeCast_a_1a_apply]

end Cert.KernelIdeal.GiValue

end
-- ==== Proof.Spec.lean ====
/-
  The teacher-forced GRU step followed by a layer norm, as ONE function of the eleven argument arrays.

  With z : [2048, 512], teacher inputs ti : [2048, 28, 256], weights fcw : [1024, 512], wih, whh : [3072, 1024] and vectors
  fcb, gam, bet : [1024], bih, bhh : [3072], on the extended reals:

    x[b, k]      = (∑ j, z[b, j] · fcw[k, j]) + fcb[k]                      the projected latent, shared by every time step
    gi[b, e]     = (∑ k, x[b, k] · wih[e, k]) + bih[e]                      the input gates' pre-activations
    h[t, b, k]   = 0 at t = 0, else ti[b, t − 1, k mod 256]                the previous step's teacher state, its 256 entries tiled four times
    gh[t, b, e]  = (∑ k, h[t, b, k] · whh[e, k]) + bhh[e]                   the hidden gates' pre-activations
    r, u         = σ(gi[b, d] + gh[t, b, d]), σ(gi[b, 1024 + d] + gh[t, b, 1024 + d])
    n            = tanh(gi[b, 2048 + d] + r · gh[t, b, 2048 + d])
    pre[t, b, d] = (1 − u) · n + u · h[t, b, d]
    out[t, b, d] = (pre − μ) · rsqrt(v + ε) · gam[d] + bet[d],   μ = (∑ d, pre) / 1024,   v = (∑ d, (pre − μ)²) / 1024

  over each row (t, b) of 1024 entries. The three float literals (1, 1024 and ε, the f32 nearest 1e-5) stay as their words:
  both programs carry the same words, so none is ever evaluated. No program is imported here.
-/
import Idealize.ShloMosaic.Lib.ValueIdx
import Idealize.ShloMosaic.PureOps.Ideal.Laws

noncomputable section

namespace Cert.GruNorm

open Idealize.ShloMosaic Idealize.ShloMosaic.ValueIdx
open scoped BigOperators

/-- The three float literals both programs carry, as their words. -/
abbrev one : EReal := Ideal.ofBits .f32 0x3F800000#32
abbrev c1024 : EReal := Ideal.ofBits .f32 0x44800000#32
abbrev eps : EReal := Ideal.ofBits .f32 0x3727C5AC#32

/-- The three gate columns of entry `d` in a row of 3072 pre-activations. -/
abbrev colR (d : Fin 1024) : Fin 3072 := ⟨d.val, by have := d.isLt; omega⟩
abbrev colU (d : Fin 1024) : Fin 3072 := ⟨1024 + d.val, by have := d.isLt; omega⟩
abbrev colN (d : Fin 1024) : Fin 3072 := ⟨2048 + d.val, by have := d.isLt; omega⟩

/-- The projected latent `x = z · fcwᵀ + fcb`. -/
def xfc (z : FVec Ideal ⟨2, ![2048, 512]⟩ .f32) (fcw : FVec Ideal ⟨2, ![1024, 512]⟩ .f32) (fcb : FVec Ideal ⟨1, ![1024]⟩ .f32)
    (b : Fin 2048) (k : Fin 1024) : EReal :=
  (∑ j : Fin 512, z (ix2 b j) * fcw (ix2 k j)) + fcb (ix1 k)

/-- The input gates' pre-activations `gi = x · wihᵀ + bih`. -/
def gi (z : FVec Ideal ⟨2, ![2048, 512]⟩ .f32) (fcw : FVec Ideal ⟨2, ![1024, 512]⟩ .f32) (fcb : FVec Ideal ⟨1, ![1024]⟩ .f32)
    (wih : FVec Ideal ⟨2, ![3072, 1024]⟩ .f32) (bih : FVec Ideal ⟨1, ![3072]⟩ .f32) (b : Fin 2048) (e : Fin 3072) : EReal :=
  (∑ k : Fin 1024, xfc z fcw fcb b k * wih (ix2 e k)) + bih (ix1 e)

/-- The previous step's teacher state: zero at the first step, else the teacher input of step `t − 1`, tiled to 1024 entries. -/
def hprev (ti : FVec Ideal ⟨3, ![2048, 28, 256]⟩ .f32) (t : Fin 28) (b : Fin 2048) (k : Fin 1024) : EReal :=
  if t.val = 0 then 0
  else ti (ix3 b (⟨t.val - 1, by have := t.isLt; omega⟩ : Fin 28) (⟨k.val % 256, Nat.mod_lt _ (by decide)⟩ : Fin 256))

/-- The hidden gates' pre-activations `gh = h · whhᵀ + bhh`. -/
def gh (ti : FVec Ideal ⟨3, ![2048, 28, 256]⟩ .f32) (whh : FVec Ideal ⟨2, ![3072, 1024]⟩ .f32) (bhh : FVec Ideal ⟨1, ![3072]⟩ .f32)
    (t : Fin 28) (b : Fin 2048) (e : Fin 3072) : EReal :=
  (∑ k : Fin 1024, hprev ti t b k * whh (ix2 e k)) + bhh (ix1 e)

/-- The gated blend of one row, from its input and hidden pre-activations and the previous state. -/
def blend (GI GH : Fin 3072 → EReal) (h : Fin 1024 → EReal) (d : Fin 1024) : EReal :=
  (one - Ideal.logistic (GI (colU d) + GH (colU d)))
      * Ideal.tanh (GI (colN d) + Ideal.logistic (GI (colR d) + GH (colR d)) * GH (colN d))
    + Ideal.logistic (GI (colU d) + GH (colU d)) * h d

/-- A row's mean. -/
def mean (row : Fin 1024 → EReal) : EReal := Ideal.div (∑ k : Fin 1024, row k) c1024

/-- A row's layer norm with scale `gam` and shift `bet`. -/
def layerNorm (row : Fin 1024 → EReal) (gam bet : FVec Ideal ⟨1, ![1024]⟩ .f32) (d : Fin 1024) : EReal :=
  (row d - mean row) * Ideal.rsqrt (mean (fun k => (row k - mean row) * (row k - mean row)) + eps) * gam (ix1 d) + bet (ix1 d)

/-- The blended row `(t, b)`. -/
def pre (z : FVec Ideal ⟨2, ![2048, 512]⟩ .f32) (ti : FVec Ideal ⟨3, ![2048, 28, 256]⟩ .f32) (fcw : FVec Ideal ⟨2, ![1024, 512]⟩ .f32)
    (fcb : FVec Ideal ⟨1, ![1024]⟩ .f32) (wih whh : FVec Ideal ⟨2, ![3072, 1024]⟩ .f32) (bih bhh : FVec Ideal ⟨1, ![3072]⟩ .f32)
    (t : Fin 28) (b : Fin 2048) : Fin 1024 → EReal :=
  blend (gi z fcw fcb wih bih b) (gh ti whh bhh t b) (hprev ti t b)

/-- The whole result: entry `(t, b, d)` of the [28, 2048, 1024] output. -/
def out (z : FVec Ideal ⟨2, ![2048, 512]⟩ .f32) (ti : FVec Ideal ⟨3, ![2048, 28, 256]⟩ .f32) (fcw : FVec Ideal ⟨2, ![1024, 512]⟩ .f32)
    (fcb : FVec Ideal ⟨1, ![1024]⟩ .f32) (wih whh : FVec Ideal ⟨2, ![3072, 1024]⟩ .f32) (bih bhh : FVec Ideal ⟨1, ![3072]⟩ .f32)
    (gam bet : FVec Ideal ⟨1, ![1024]⟩ .f32) : FVec Ideal ⟨3, ![28, 2048, 1024]⟩ .f32 :=
  fun i => layerNorm (pre z ti fcw fcb wih whh bih bhh (i 0) (i 1)) gam bet (i 2)

theorem out_apply (z : FVec Ideal ⟨2, ![2048, 512]⟩ .f32) (ti : FVec Ideal ⟨3, ![2048, 28, 256]⟩ .f32) (fcw : FVec Ideal ⟨2, ![1024, 512]⟩ .f32)
    (fcb : FVec Ideal ⟨1, ![1024]⟩ .f32) (wih whh : FVec Ideal ⟨2, ![3072, 1024]⟩ .f32) (bih bhh : FVec Ideal ⟨1, ![3072]⟩ .f32)
    (gam bet : FVec Ideal ⟨1, ![1024]⟩ .f32) (t : Fin 28) (b : Fin 2048) (d : Fin 1024) :
    out z ti fcw fcb wih whh bih bhh gam bet (ix3 t b d) = layerNorm (pre z ti fcw fcb wih whh bih bhh t b) gam bet d := rfl

end Cert.GruNorm

end
-- ==== Proof.GiArray.lean ====
/-
  The first region's output array, as one function of the arrays the region is entered with.

  The region's grid has four points; point `t` reads rows `512·t … 512·t + 511` of `z` (the other four operands whole) and writes
  back rows `512·t … 512·t + 511` of the [2048, 3072] output. Entry `(p, e)` of what point `t` writes is the input gates'
  pre-activation `gi` of row `512·t + p` at column `e`, a function of the whole operand arrays; the four row blocks tile the
  output, so after the region the array holds `gi` everywhere.
-/
import proofs.«136537_j72421738545905_1_alg».proof.Proof.FrameKernelIdeal
import proofs.«136537_j72421738545905_1_alg».proof.Proof.GiPayload
import proofs.«136537_j72421738545905_1_alg».proof.Proof.Spec
import Idealize.ShloMosaic.Lib.Pipeline.Value

noncomputable section

open Idealize.ShloMosaic Idealize.ShloMosaic.TcCoe Idealize.SL.Sem Idealize.ShloMosaic.ValueIdx
open Idealize.ShloMosaic.Pipeline (Dat)
open scoped BigOperators

namespace Cert.KernelIdeal.GiArr

open Cert.KernelIdeal Cert.KernelIdeal.Gen Cert.KernelIdeal.GenP Cert.KernelIdeal.GiValue

-- the buffer contents when the region is entered
variable (V : (c : Dev nD) → (b : Ref sig .tc) → Buf (Elt Ideal) ((c : Thread nD τ).loc b))

theorem hz1 : (![0] : Fin 1 → Nat) = fun _ => 0 := funext fun a => by fin_cases a; rfl
theorem hz2 : (![0, 0] : Fin 2 → Nat) = fun _ => 0 := funext fun a => by fin_cases a <;> rfl

/-- The region's output array as a function of its five operand arrays. -/
def giOf (c : Dev nD) : S2048x3072.Idx → EReal := fun i =>
  Cert.GruNorm.gi (V c main_v0) (V c main_v1) (V c main_arg4) (V c main_v2) (V c main_arg7) (i 0) (i 1)

/-- The printed index maps over the four grid points: the row block of `z` and of the output is the point's, every other
    block index is zero. -/
theorem idx0 : ∀ t : Fin cfg0.N, win0_0.index t (0 : Fin 2) = t.val ∧ win0_0.index t (1 : Fin 2) = 0
    ∧ win0_1.index t (0 : Fin 2) = 0 ∧ win0_1.index t (1 : Fin 2) = 0 ∧ win0_2.index t (0 : Fin 1) = 0
    ∧ win0_3.index t (0 : Fin 2) = 0 ∧ win0_3.index t (1 : Fin 2) = 0 ∧ win0_4.index t (0 : Fin 1) = 0
    ∧ win0_5.index t (0 : Fin 2) = t.val ∧ win0_5.index t (1 : Fin 2) = 0 ∧ t.val < 4 :=
  (by decide +kernel : ∀ t : Fin grid0.N, _)

/-! ### Each operand's block at a point, read off its array -/

theorem blk_z (c : Dev nD) (t : Fin cfg0.N) (p j : Fin 512) (k : S2048x512.Idx)
    (hk0 : (k 0).val = t.val * 512 + p.val) (hk1 : (k 1).val = j.val) :
    (iblk0 V c 0 t : FVec Ideal S512x512 .bf16) (ix2 p j) = (V c main_v0 : S2048x512.Idx → EReal) k := by
  obtain ⟨e0, e1, -⟩ := idx0 t
  unfold iblk0
  rw [View.read_apply]
  show V c main_v0 _ = V c main_v0 _
  refine congrArg _ (funext fun a => Fin.ext ?_)
  match a with
  | ⟨0, _⟩ => show win0_0.index t (0 : Fin 2) * 512 + 1 * p.val = (k 0).val; rw [e0, hk0]; omega
  | ⟨1, _⟩ => show win0_0.index t (1 : Fin 2) * 512 + 1 * j.val = (k 1).val; rw [e1, hk1]; omega

theorem blk_fcw (c : Dev nD) (t : Fin cfg0.N) (k : Fin 1024) (j : Fin 512) :
    (iblk0 V c 1 t : FVec Ideal S1024x512 .bf16) (ix2 k j) = (V c main_v1 : S1024x512.Idx → EReal) (ix2 k j) := by
  obtain ⟨-, -, e0, e1, -⟩ := idx0 t
  unfold iblk0
  rw [View.read_apply]
  show V c main_v1 _ = V c main_v1 _
  refine congrArg _ (funext fun a => Fin.ext ?_)
  match a with
  | ⟨0, _⟩ => show win0_1.index t (0 : Fin 2) * 1024 + 1 * k.val = k.val; rw [e0]; omega
  | ⟨1, _⟩ => show win0_1.index t (1 : Fin 2) * 512 + 1 * j.val = j.val; rw [e1]; omega

theorem blk_fcb (c : Dev nD) (t : Fin cfg0.N) (k : Fin 1024) :
    (iblk0 V c 2 t : FVec Ideal S1024 .f32) (ix1 k) = (V c main_arg4 : S1024.Idx → EReal) (ix1 k) := by
  obtain ⟨-, -, -, -, e0, -⟩ := idx0 t
  unfold iblk0
  rw [View.read_apply]
  show V c main_arg4 _ = V c main_arg4 _
  refine congrArg _ (funext fun a => Fin.ext ?_)
  match a with
  | ⟨0, _⟩ => show win0_2.index t (0 : Fin 1) * 1024 + 1 * k.val = k.val; rw [e0]; omega

theorem blk_wih (c : Dev nD) (t : Fin cfg0.N) (e : Fin 3072) (k : Fin 1024) (q : Fin 3072) (hq : q.val = e.val) :
    (iblk0 V c 3 t : FVec Ideal S3072x1024 .bf16) (ix2 e k) = (V c main_v2 : S3072x1024.Idx → EReal) (ix2 q k) := by
  obtain ⟨-, -, -, -, -, e0, e1, -⟩ := idx0 t
  unfold iblk0
  rw [View.read_apply]
  show V c main_v2 _ = V c main_v2 _
  refine congrArg _ (funext fun a => Fin.ext ?_)
  match a with
  | ⟨0, _⟩ => show win0_3.index t (0 : Fin 2) * 3072 + 1 * e.val = q.val; rw [e0, hq]; omega
  | ⟨1, _⟩ => show win0_3.index t (1 : Fin 2) * 1024 + 1 * k.val = k.val; rw [e1]; omega

theorem blk_bih (c : Dev nD) (t : Fin cfg0.N) (e : Fin 3072) (q : Fin 3072) (hq : q.val = e.val) :
    (iblk0 V c 4 t : FVec Ideal S3072 .f32) (ix1 e) = (V c main_arg7 : S3072.Idx → EReal) (ix1 q) := by
  obtain ⟨-, -, -, -, -, -, -, e0, -⟩ := idx0 t
  unfold iblk0
  rw [View.read_apply]
  show V c main_arg7 _ = V c main_arg7 _
  refine congrArg _ (funext fun a => Fin.ext ?_)
  match a with
  | ⟨0, _⟩ => show win0_4.index t (0 : Fin 1) * 3072 + 1 * e.val = q.val; rw [e0, hq]; omega

/-! ### What a point writes back, the cover, the array -/

/-- What point `t` writes back is block `t` of `giOf`. -/
theorem flushed_eq (c : Dev nD) (t : Fin cfg0.N) :
    (dat0 V c).flushed 5 t = ((cfg0.win 5).blk t).view.read (Elt Ideal) (giOf V c) := by
  show (cfg0.win 5).cut (grid0.coords t) ((dat0 V c).after 5 t) = _
  rw [after0_5]
  unfold out0_5
  rw [View.canon_unit_zero hz2]
  simp only [View.ld_unit_zero (S := S512x512) hz2, View.ld_unit_zero (S := S1024x512) hz2, View.ld_unit_zero (S := S1024) hz1,
    View.ld_unit_zero (S := S3072x1024) hz2, View.ld_unit_zero (S := S3072) hz1]
  obtain ⟨-, -, -, -, -, -, -, -, e0, e1, -⟩ := idx0 t
  funext y
  obtain ⟨p, e, rfl⟩ : ∃ (p : Fin 512) (e : Fin 3072), y = ix2 p e := ⟨y 0, y 1, eq_ix2 y⟩
  rw [View.read_apply]
  have hI0 : ((((cfg0.win 5).blk t).view.emb (ix2 p e)) 0).val = t.val * 512 + p.val := by
    show win0_5.index t (0 : Fin 2) * 512 + 1 * p.val = _; rw [e0]; omega
  have hI1 : ((((cfg0.win 5).blk t).view.emb (ix2 p e)) 1).val = e.val := by
    show win0_5.index t (1 : Fin 2) * 3072 + 1 * e.val = _; rw [e1]; omega
  show k0_pay1 (F := Ideal) (iblk0 V c 0 t) (iblk0 V c 1 t) (iblk0 V c 2 t) (iblk0 V c 3 t) (iblk0 V c 4 t) (ix2 p e) = _
  refine (gi_entry (iblk0 V c 0 t) (iblk0 V c 1 t) (iblk0 V c 2 t) (iblk0 V c 3 t) (iblk0 V c 4 t) p e).trans ?_
  unfold giOf Cert.GruNorm.gi Cert.GruNorm.xfc
  refine congrArg₂ (· + ·) (Finset.sum_congr rfl fun k _ => congrArg₂ (· * ·) (congrArg₂ (· + ·)
    (Finset.sum_congr rfl fun j _ => congrArg₂ (· * ·) (blk_z V c t p j _ hI0 rfl) (blk_fcw V c t k j)) (blk_fcb V c t k))
    (blk_wih V c t e k _ hI1)) (blk_bih V c t e _ hI1)

/-- An index of the output is in point `t`'s block iff each coordinate is in the block's range on its axis. -/
theorem mem_blk (t : Fin cfg0.N) (i : S2048x3072.Idx) :
    i ∈ ((cfg0.win 5).blk t).view.set ↔ ∀ a : Fin 2, win0_5.index t a * S512x3072.size a ≤ (i a).val ∧ (i a).val < win0_5.index t a * S512x3072.size a + S512x3072.size a := by
  show i ∈ ((View.whole main_v5).slice (win0_5.rect t)).set ↔ _
  rw [View.set_slice_whole, Rect.mem_set_unit]
  exact Iff.rfl

/-- Every block row of the output is some point's. -/
theorem idx_onto : ∀ q : Fin 4, ∃ t : Fin cfg0.N, win0_5.index t = ![q.val, 0] :=
  (by decide +kernel : ∀ q : Fin 4, ∃ t : Fin grid0.N, win0_5.index t = ![q.val, 0])

/-- The four row blocks cover the output. -/
theorem cover (i : S2048x3072.Idx) : ∃ t : Fin cfg0.N, (cfg0.win 5).flush t = true ∧ i ∈ ((cfg0.win 5).blk t).view.set := by
  have hi0 : (i 0).val < 2048 := (i 0).isLt
  have hi1 : (i 1).val < 3072 := (i 1).isLt
  obtain ⟨t, ht⟩ := idx_onto ⟨(i 0).val / 512, by omega⟩
  have q0 : win0_5.index t (0 : Fin 2) = (i 0).val / 512 := congrFun ht 0
  have q1 : win0_5.index t (1 : Fin 2) = 0 := congrFun ht 1
  refine ⟨t, flush0_5 t, ?_⟩
  rw [mem_blk]
  intro a
  match a with
  | ⟨0, _⟩ => show win0_5.index t (0 : Fin 2) * 512 ≤ (i 0).val ∧ (i 0).val < win0_5.index t (0 : Fin 2) * 512 + 512; omega
  | ⟨1, _⟩ => show win0_5.index t (1 : Fin 2) * 3072 ≤ (i 1).val ∧ (i 1).val < win0_5.index t (1 : Fin 2) * 3072 + 3072; omega

/-- After the region the output array holds `gi` of the operand arrays. -/
theorem final (c : Dev nD) : (dat0 V c).arrAt 5 cfg0.N = giOf V c :=
  (dat0 V c).arrAt_eq_of_cover 5 (giOf V c) (fun t _ => flushed_eq V c t) cover

end Cert.KernelIdeal.GiArr

end
-- ==== Proof.LibColumnLayout.lean ====
/-
  A vector laid out as a column, and a column broadcast across many columns.

  Reading a reshape or a broadcast at an index: an `[a]` array cast to `[a, 1]` holds at (i, 0) its entry i, and an
  `[a, 1]` column broadcast to `[a, b]` holds at (p, c) the column's entry p, whatever the column c. These are the forms a
  sum kept as a column (one number per row) takes when it is added back to a matrix row by row.
-/
import Idealize.ShloMosaic.Lib.Pipeline.Value
import Idealize.ShloMosaic.Lib.ValueIdx

namespace Cert.ColumnLayout

open Idealize.ShloMosaic Idealize.ShloMosaic.ValueIdx

variable {α : Type}

/-- An `[a]` array cast to `[a, 1]` reads, at `(i, u)`, the operand at `i`, whatever the unit coordinate `u`: both
    sit at row-major position `i`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `[a, 1]` column broadcast to `[a, b]` reads, at `(p, c)`, the column's entry `p`: the row coordinate is kept
    (or is 0 when there is one row), the unit axis is read at 0. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Cert.ColumnLayout
-- ==== Proof.GruPayload.lean ====
/-
  The second kernel's stored value, read at one entry.

  At grid point `(b, t)` the body holds a block of 256 batch rows. With the loaded blocks `x0 : [1, 256, 256]` (the teacher inputs
  of step `t − 1`, or of step 0 when `t = 0`), `x1 : [256, 3072]` (the input gates' pre-activations), `x2 : [3072, 1024]` (`whh`),
  `x3 : [3072]` (`bhh`), `x4, x5 : [1024]` (scale and shift), row `r` of the block is, on the extended reals:

      h[r, k]   = 0 when t = 0, else x0[0, r, k mod 256]                       the 256 teacher entries laid side by side four times
      gh[r, e]  = (∑ k, h[r, k] · x2[e, k]) + x3[e]
      pre[r, ·] = the gated blend of x1[r, ·], gh[r, ·] and h[r, ·]           (Cert.GruNorm.blend)
      out[r, d] = the layer norm of the row pre[r, ·] at d                    (Cert.GruNorm.layerNorm)

  The row sums of the mean and of the variance are lane reductions kept as a one-column matrix and repeated across the row; a
  change of float format is the identity; the comparison of the time coordinate with zero selects the zero block at `t = 0`.
-/
import proofs.«136537_j72421738545905_1_alg».proof.Proof.Gen.KernelIdeal.Skeleton
import proofs.«136537_j72421738545905_1_alg».proof.Proof.LibRowProduct
import proofs.«136537_j72421738545905_1_alg».proof.Proof.LibColumnLayout
import proofs.«136537_j72421738545905_1_alg».proof.Proof.Spec
import Idealize.ShloMosaic.Lib.ValueLayout
import Idealize.ShloMosaic.Lib.Pipeline.Value
import Idealize.ShloMosaic.Lib.ValueIdx
import Idealize.ShloMosaic.PureOps.Ideal.Laws

noncomputable section

namespace Cert.KernelIdeal.GruValue

open Cert.KernelIdeal Cert.KernelIdeal.Gen Idealize.ShloMosaic Idealize.ShloMosaic.ValueIdx
open scoped BigOperators

/-- The hidden product's dimension numbers. -/
abbrev Dh := dot_S256x1024_S3072x1024_S256x3072_1_1_0_0_n_n

theorem dh_l0 (j : S256x3072.Idx) (q : Dh.contr.Idx) : (Dh.lhsIdx j q (0 : Fin 2)).val = (j (0 : Fin 2)).val := by
  unfold DotDims.lhsIdx
  rw [dif_neg (show ¬(0 : Fin S256x1024.rank) ∈ Dh.lhsBatch by decide), dif_pos (show (0 : Fin S256x1024.rank) ∈ Dh.lhsNonContracting by decide)]
  rfl
theorem dh_l1 (j : S256x3072.Idx) (q : Dh.contr.Idx) : (Dh.lhsIdx j q (1 : Fin 2)).val = (q ⟨0, by decide⟩).val :=
  Dh.lhsIdx_val_of_single rfl j q
theorem dh_r0 (j : S256x3072.Idx) (q : Dh.contr.Idx) : (Dh.rhsIdx j q (0 : Fin 2)).val = (j (1 : Fin 2)).val := by
  unfold DotDims.rhsIdx
  rw [dif_neg (show ¬(0 : Fin S3072x1024.rank) ∈ Dh.rhsBatch by decide), dif_pos (show (0 : Fin S3072x1024.rank) ∈ Dh.rhsNonContracting by decide)]
  rfl
theorem dh_r1 (j : S256x3072.Idx) (q : Dh.contr.Idx) : (Dh.rhsIdx j q (1 : Fin 2)).val = (q ⟨0, by decide⟩).val :=
  Dh.rhsIdx_val_of_single rfl j q

/-! ### The rows the entries are stated over -/

/-- Row `r` of the previous state: zero at the first time step, else the 256 teacher entries of the row, tiled. -/
def hRow (i : grid1.Coords) (x0 : FVec Ideal S1x256x256 .f32) (r : Fin 256) (k : Fin 1024) : EReal :=
  if (i 1).val = 0 then 0 else x0 (ix3 (0 : Fin 1) r (⟨k.val % 256, Nat.mod_lt _ (by decide)⟩ : Fin 256))

/-- Row `r` of the hidden gates' pre-activations. -/
def ghRow (i : grid1.Coords) (x0 : FVec Ideal S1x256x256 .f32) (x2 : FVec Ideal S3072x1024 .bf16) (x3 : FVec Ideal S3072 .f32)
    (r : Fin 256) (e : Fin 3072) : EReal :=
  (∑ k : Fin 1024, hRow i x0 r k * x2 (ix2 e k)) + x3 (ix1 e)

/-- Row `r` blended. -/
def preRow (i : grid1.Coords) (x0 : FVec Ideal S1x256x256 .f32) (x1 : FVec Ideal S256x3072 .f32) (x2 : FVec Ideal S3072x1024 .bf16)
    (x3 : FVec Ideal S3072 .f32) (r : Fin 256) : Fin 1024 → EReal :=
  Cert.GruNorm.blend (fun e => x1 (ix2 r e)) (ghRow i x0 x2 x3 r) (hRow i x0 r)

/-! ### The pieces of the body's term -/

/-- The previous state's block as the body builds it: the zero block at the first time step, else four copies of the
    teacher block side by side. -/
def hBlk (i : grid1.Coords) (x0 : FVec Ideal S1x256x256 .f32) : FVec Ideal S256x1024 .f32 :=
  Scalar.select (Scalar.cmpi .eq (BitVec.ofNat 32 (i 1).val) 0#32) (broadcast S256x1024 (Scalar.ofBits .f32 0x00000000#32))
    (concatenate S256x1024 1 [⟨S256x256, shapeCast S256x256 x0 shapeCasts_S1x256x256_S256x256⟩, ⟨S256x256, shapeCast S256x256 x0 shapeCasts_S1x256x256_S256x256⟩,
      ⟨S256x256, shapeCast S256x256 x0 shapeCasts_S1x256x256_S256x256⟩, ⟨S256x256, shapeCast S256x256 x0 shapeCasts_S1x256x256_S256x256⟩]
      concatenates_S256x256_S256x256_S256x256_S256x256_S256x1024_d1)

/-- A time coordinate other than zero compares unequal to zero as a 32-bit word. -/
theorem cmp_ne : ∀ n : Fin 28, n.val ≠ 0 → Scalar.cmpi .eq (BitVec.ofNat 32 n.val) 0#32 = 0#1 := by decide

theorem hBlk_apply (i : grid1.Coords) (x0 : FVec Ideal S1x256x256 .f32) (r : Fin 256) (k : Fin 1024) :
    hBlk i x0 (ix2 r k) = hRow i x0 r k := by
  unfold hBlk hRow
  by_cases h0 : (i 1).val = 0
  · have hc : Scalar.cmpi .eq (BitVec.ofNat 32 (i 1).val) 0#32 = 1#1 := by rw [h0]; rfl
    rw [hc, select_one, if_pos h0]
    exact Ideal.ofBits_zero_f32
  · have hc : Scalar.cmpi .eq (BitVec.ofNat 32 (i 1).val) 0#32 = 0#1 := cmp_ne ⟨(i 1).val, (i 1).isLt⟩ h0
    rw [hc, select_zero, if_neg h0]
    refine (concatenate_replicate_apply (α := Ideal .f32) (t := S256x1024) (s₁ := S256x256) (1 : Fin 2) 4
      (shapeCast S256x256 x0 shapeCasts_S1x256x256_S256x256)
      (show Shape.Concatenates ((List.replicate 4 (⟨S256x256, shapeCast S256x256 x0 shapeCasts_S1x256x256_S256x256⟩ :
          (s : Shape) × (s.Idx → Ideal .f32))).map (·.1)) S256x1024 1 from concatenates_S256x256_S256x256_S256x256_S256x256_S256x1024_d1)
      rfl (ix2 r k) (ix2 r (⟨k.val % 256, Nat.mod_lt _ (by decide)⟩ : Fin 256)) rfl ?_).trans ?_
    · intro b hb
      match b with
      | ⟨0, _⟩ => rfl
      | ⟨1, _⟩ => exact absurd rfl hb
    · exact shapeCast_1ab_ab_apply x0 shapeCasts_S1x256x256_S256x256 r _

/-- The hidden gates' pre-activations of the block. -/
def ghBlk (i : grid1.Coords) (x0 : FVec Ideal S1x256x256 .f32) (x2 : FVec Ideal S3072x1024 .bf16) (x3 : FVec Ideal S3072 .f32) :
    FVec Ideal S256x3072 .f32 :=
  addf (matmul Dh none (truncf .bf16 (hBlk i x0) bitsLt_bf16_f32) (shapeCast S3072x1024 x2 shapeCasts_S3072x1024_S3072x1024)
      (constant S256x3072 .f32 0x00000000#32))
    (broadcastTo S256x3072 (shapeCast S1x3072 x3 shapeCasts_S3072_S1x3072) broadcasts_S1x3072_S256x3072)

theorem ghBlk_apply (i : grid1.Coords) (x0 : FVec Ideal S1x256x256 .f32) (x2 : FVec Ideal S3072x1024 .bf16) (x3 : FVec Ideal S3072 .f32)
    (r : Fin 256) (e : Fin 3072) : ghBlk i x0 x2 x3 (ix2 r e) = ghRow i x0 x2 x3 r e := by
  unfold ghBlk ghRow
  rw [shapeCast_self, addf_apply]
  refine congrArg₂ (· + ·) ?_ ?_
  · refine (Cert.RowProduct.matmul_zero_entry Dh rfl rfl dh_l0 dh_l1 dh_r0 dh_r1 _ x2 r e).trans ?_
    refine Finset.sum_congr rfl fun k _ => ?_
    rw [truncf_apply, hBlk_apply]
  · rw [broadcastTo_1b_ab_apply, shapeCast_a_1a_apply]

/-- The blended block. -/
def preBlk (i : grid1.Coords) (x0 : FVec Ideal S1x256x256 .f32) (x1 : FVec Ideal S256x3072 .f32) (x2 : FVec Ideal S3072x1024 .bf16)
    (x3 : FVec Ideal S3072 .f32) : FVec Ideal S256x1024 .f32 :=
  addf
    (mulf (subf (broadcast S256x1024 (Scalar.ofBits .f32 0x3F800000#32))
        (logistic (addf (extractStridedSlice S256x1024 ![0, 1024] (shapeCast S256x3072 x1 shapeCasts_S256x3072_S256x3072) slices_S256x3072_o0_1024_S256x1024)
          (extractStridedSlice S256x1024 ![0, 1024] (ghBlk i x0 x2 x3) slices_S256x3072_o0_1024_S256x1024))))
      (tanh (addf (extractStridedSlice S256x1024 ![0, 2048] (shapeCast S256x3072 x1 shapeCasts_S256x3072_S256x3072) slices_S256x3072_o0_2048_S256x1024)
        (mulf (logistic (addf (extractStridedSlice S256x1024 ![0, 0] (shapeCast S256x3072 x1 shapeCasts_S256x3072_S256x3072) slices_S256x3072_o0_0_S256x1024)
            (extractStridedSlice S256x1024 ![0, 0] (ghBlk i x0 x2 x3) slices_S256x3072_o0_0_S256x1024)))
          (extractStridedSlice S256x1024 ![0, 2048] (ghBlk i x0 x2 x3) slices_S256x3072_o0_2048_S256x1024)))))
    (mulf (logistic (addf (extractStridedSlice S256x1024 ![0, 1024] (shapeCast S256x3072 x1 shapeCasts_S256x3072_S256x3072) slices_S256x3072_o0_1024_S256x1024)
        (extractStridedSlice S256x1024 ![0, 1024] (ghBlk i x0 x2 x3) slices_S256x3072_o0_1024_S256x1024)))
      (hBlk i x0))

theorem logistic_apply {s : Shape} {φ : FTy} (a : FVec Ideal s φ) (j : s.Idx) : logistic a j = Ideal.logistic (a j) := rfl
theorem tanh_apply {s : Shape} {φ : FTy} (a : FVec Ideal s φ) (j : s.Idx) : tanh a j = Ideal.tanh (a j) := rfl
theorem rsqrt_apply {s : Shape} {φ : FTy} (a : FVec Ideal s φ) (j : s.Idx) : rsqrt a j = Ideal.rsqrt (a j) := rfl

/-- A column slice of a 3072-wide block at offset `o`, read at `(r, d)`, is the block at `(r, o + d)`. -/
theorem sliceR (X : FVec Ideal S256x3072 .f32) (r : Fin 256) (d : Fin 1024) :
    extractStridedSlice S256x1024 ![0, 0] X slices_S256x3072_o0_0_S256x1024 (ix2 r d) = X (ix2 r (Cert.GruNorm.colR d)) :=
  slice2_axis1_apply 0 X slices_S256x3072_o0_0_S256x1024 r d (Cert.GruNorm.colR d) (Nat.zero_add _).symm
theorem sliceU (X : FVec Ideal S256x3072 .f32) (r : Fin 256) (d : Fin 1024) :
    extractStridedSlice S256x1024 ![0, 1024] X slices_S256x3072_o0_1024_S256x1024 (ix2 r d) = X (ix2 r (Cert.GruNorm.colU d)) :=
  slice2_axis1_apply 1024 X slices_S256x3072_o0_1024_S256x1024 r d (Cert.GruNorm.colU d) rfl
theorem sliceN (X : FVec Ideal S256x3072 .f32) (r : Fin 256) (d : Fin 1024) :
    extractStridedSlice S256x1024 ![0, 2048] X slices_S256x3072_o0_2048_S256x1024 (ix2 r d) = X (ix2 r (Cert.GruNorm.colN d)) :=
  slice2_axis1_apply 2048 X slices_S256x3072_o0_2048_S256x1024 r d (Cert.GruNorm.colN d) rfl

theorem preBlk_apply (i : grid1.Coords) (x0 : FVec Ideal S1x256x256 .f32) (x1 : FVec Ideal S256x3072 .f32) (x2 : FVec Ideal S3072x1024 .bf16)
    (x3 : FVec Ideal S3072 .f32) (r : Fin 256) (d : Fin 1024) :
    preBlk i x0 x1 x2 x3 (ix2 r d) = preRow i x0 x1 x2 x3 r d := by
  unfold preBlk preRow Cert.GruNorm.blend
  rw [shapeCast_self]
  simp only [addf_apply, mulf_apply, subf_apply, logistic_apply, tanh_apply, broadcast_apply, sliceR, sliceU, sliceN,
    ghBlk_apply, hBlk_apply]
  rfl

/-! ### The layer norm of the blended block -/

/-- A lane sum of a [256, 1024] block, read at row `r`: the sum of the row's 1024 entries. -/
theorem rowSum (src : FVec Ideal S256x1024 .f32) (r : Fin 256) :
    multiReduction .add [1] S256 src 0x00000000#32 reduces_S256x1024_S256 (.inl rfl) rfl (ix1 r) = ∑ k : Fin 1024, src (ix2 r k) :=
  (Ideal.multiReduction_add_single src 0x00000000#32 reduces_S256x1024_S256 (.inl rfl) rfl (ix1 r)).trans
    (Finset.sum_congr rfl fun k _ => congrArg src (funext fun a => Fin.ext (by
      match a with
      | ⟨0, _⟩ => rfl
      | ⟨1, _⟩ => rfl)))

/-- The row sums kept as a column and divided by 1024: at `(r, ·)` the row's mean. -/
theorem meanCol (src : FVec Ideal S256x1024 .f32) (r : Fin 256) (u : Fin 1) :
    divf (shapeCast S256x1 (multiReduction .add [1] S256 src 0x00000000#32 reduces_S256x1024_S256 (.inl rfl) rfl) shapeCasts_S256_S256x1)
      (broadcast S256x1 (Scalar.ofBits .f32 0x44800000#32)) (ix2 r u) = Cert.GruNorm.mean (fun k => src (ix2 r k)) := by
  rw [divf_apply, Cert.ColumnLayout.shapeCast_a_a1_apply, rowSum, broadcast_apply]
  rfl

/-- The centred block: the blended block minus its rows' means. -/
theorem pay2_eq (i : grid1.Coords) (x0 : FVec Ideal S1x256x256 .f32) (x1 : FVec Ideal S256x3072 .f32) (x2 : FVec Ideal S3072x1024 .bf16)
    (x3 : FVec Ideal S3072 .f32) :
    k1_pay2 (F := Ideal) i x0 x2 x3 x1 = subf (preBlk i x0 x1 x2 x3) (broadcastTo S256x1024
      (divf (shapeCast S256x1 (multiReduction .add [1] S256 (preBlk i x0 x1 x2 x3) 0x00000000#32 reduces_S256x1024_S256 (.inl rfl) rfl) shapeCasts_S256_S256x1)
        (broadcast S256x1 (Scalar.ofBits .f32 0x44800000#32))) broadcasts_S256x1_S256x1024) := rfl

theorem pay2_apply (i : grid1.Coords) (x0 : FVec Ideal S1x256x256 .f32) (x1 : FVec Ideal S256x3072 .f32) (x2 : FVec Ideal S3072x1024 .bf16)
    (x3 : FVec Ideal S3072 .f32) (r : Fin 256) (d : Fin 1024) :
    k1_pay2 (F := Ideal) i x0 x2 x3 x1 (ix2 r d) = preRow i x0 x1 x2 x3 r d - Cert.GruNorm.mean (preRow i x0 x1 x2 x3 r) := by
  rw [pay2_eq, subf_apply, Cert.ColumnLayout.broadcastTo_a1_ab_apply, meanCol, preBlk_apply]
  simp only [preBlk_apply]

/-- The rows' sums of squared deviations, kept as a column. -/
theorem pay3_apply (i : grid1.Coords) (x0 : FVec Ideal S1x256x256 .f32) (x1 : FVec Ideal S256x3072 .f32) (x2 : FVec Ideal S3072x1024 .bf16)
    (x3 : FVec Ideal S3072 .f32) (r : Fin 256) (u : Fin 1) :
    k1_pay3 (F := Ideal) i x0 x2 x3 x1 (ix2 r u)
      = ∑ k : Fin 1024, (preRow i x0 x1 x2 x3 r k - Cert.GruNorm.mean (preRow i x0 x1 x2 x3 r)) * (preRow i x0 x1 x2 x3 r k - Cert.GruNorm.mean (preRow i x0 x1 x2 x3 r)) := by
  unfold k1_pay3
  rw [Cert.ColumnLayout.shapeCast_a_a1_apply, rowSum]
  simp only [mulf_apply, pay2_apply]

/-- Entry `(·, r, d)` of the block the second kernel stores: the layer norm of the blended row `r` at `d`. -/
theorem gru_entry (i : grid1.Coords) (x0 : FVec Ideal S1x256x256 .f32) (x1 : FVec Ideal S256x3072 .f32) (x2 : FVec Ideal S3072x1024 .bf16)
    (x3 : FVec Ideal S3072 .f32) (x4 x5 : FVec Ideal S1024 .f32) (u : Fin 1) (r : Fin 256) (d : Fin 1024) :
    k1_pay1 (F := Ideal) (k1_pay2 i x0 x2 x3 x1) (k1_pay3 i x0 x2 x3 x1) x4 x5 (ix3 u r d)
      = Cert.GruNorm.layerNorm (preRow i x0 x1 x2 x3 r) x4 x5 d := by
  unfold k1_pay1
  rw [shapeCast_ab_1ab_apply]
  simp only [addf_apply, mulf_apply, divf_apply, rsqrt_apply, broadcast_apply, broadcastTo_1b_ab_apply, shapeCast_a_1a_apply,
    Cert.ColumnLayout.broadcastTo_a1_ab_apply, pay2_apply, pay3_apply]
  rfl

end Cert.KernelIdeal.GruValue

end
-- ==== Proof.GruArray.lean ====
/-
  The second region's output array, as one function of the arrays the region is entered with.

  The grid is 8 batch blocks by 28 time steps. Point `(b, t)` reads the teacher inputs of step `t − 1` (of step 0 when `t = 0`: the
  block index is `max (t − 1) 0`) for batch rows `256·b … 256·b + 255`, the same rows of the input gates' array, the whole hidden
  weights, bias, scale and shift, and writes back rows `256·b … 256·b + 255` of time slab `t` of the [28, 2048, 1024] output. Entry
  `(·, r, d)` of what it writes is the layer norm at `d` of the blended row of batch row `256·b + r` at step `t`, a function of the whole
  operand arrays (the teacher inputs being time-major here); the 224 blocks tile the output.
-/
import proofs.«136537_j72421738545905_1_alg».proof.Proof.FrameKernelIdeal
import proofs.«136537_j72421738545905_1_alg».proof.Proof.GruPayload
import proofs.«136537_j72421738545905_1_alg».proof.Proof.Spec
import Idealize.ShloMosaic.Lib.Pipeline.Value

noncomputable section

open Idealize.ShloMosaic Idealize.ShloMosaic.TcCoe Idealize.SL.Sem Idealize.ShloMosaic.ValueIdx
open Idealize.ShloMosaic.Pipeline (Dat)
open scoped BigOperators

namespace Cert.KernelIdeal.GruArr

open Cert.KernelIdeal Cert.KernelIdeal.Gen Cert.KernelIdeal.GenP Cert.KernelIdeal.GruValue

-- the buffer contents when the region is entered
variable (V : (c : Dev nD) → (b : Ref sig .tc) → Buf (Elt Ideal) ((c : Thread nD τ).loc b))

theorem hz1 : (![0] : Fin 1 → Nat) = fun _ => 0 := funext fun a => by fin_cases a; rfl
theorem hz2 : (![0, 0] : Fin 2 → Nat) = fun _ => 0 := funext fun a => by fin_cases a <;> rfl
theorem hz3 : (![0, 0, 0] : Fin 3 → Nat) = fun _ => 0 := funext fun a => by fin_cases a <;> rfl

/-- The previous step's teacher state over the time-major teacher array. -/
def hT (TT : S28x2048x256.Idx → EReal) (t : Fin 28) (b : Fin 2048) (k : Fin 1024) : EReal :=
  if t.val = 0 then 0
  else TT (ix3 (⟨t.val - 1, by have := t.isLt; omega⟩ : Fin 28) b (⟨k.val % 256, Nat.mod_lt _ (by decide)⟩ : Fin 256))

/-- The hidden gates' pre-activations over the time-major teacher array. -/
def ghT (TT : S28x2048x256.Idx → EReal) (WHH : S3072x1024.Idx → EReal) (BHH : S3072.Idx → EReal)
    (t : Fin 28) (b : Fin 2048) (e : Fin 3072) : EReal :=
  (∑ k : Fin 1024, hT TT t b k * WHH (ix2 e k)) + BHH (ix1 e)

/-- Entry `(t, b, d)` of the region's output as a function of its six operand arrays. -/
def outAt (c : Dev nD) (t : Fin 28) (b : Fin 2048) (d : Fin 1024) : EReal :=
  Cert.GruNorm.layerNorm
    (Cert.GruNorm.blend (fun e => (V c main_v5 : S2048x3072.Idx → EReal) (ix2 b e))
      (ghT (V c main_v4) (V c main_v3) (V c main_arg8) t b) (hT (V c main_v4) t b))
    (V c main_arg9) (V c main_arg10) d

def outOf (c : Dev nD) : S28x2048x1024.Idx → EReal := fun i => outAt V c (i 0) (i 1) (i 2)

/-- The printed index maps over the 224 grid points, relative to the output's block index `(t, b, 0)`: the teacher block is
    the previous step's (the same at step 0), the gates' block is batch block `b`, every other block index is zero; and the
    body's time coordinate is the output's time index. -/
theorem idx1 : ∀ t : Fin cfg1.N, win1_0.index t (0 : Fin 3) = win1_6.index t (0 : Fin 3) - 1
    ∧ win1_0.index t (1 : Fin 3) = win1_6.index t (1 : Fin 3) ∧ win1_0.index t (2 : Fin 3) = 0
    ∧ win1_1.index t (0 : Fin 2) = win1_6.index t (1 : Fin 3) ∧ win1_1.index t (1 : Fin 2) = 0
    ∧ win1_2.index t (0 : Fin 2) = 0 ∧ win1_2.index t (1 : Fin 2) = 0 ∧ win1_3.index t (0 : Fin 1) = 0
    ∧ win1_4.index t (0 : Fin 1) = 0 ∧ win1_5.index t (0 : Fin 1) = 0
    ∧ win1_6.index t (2 : Fin 3) = 0 ∧ win1_6.index t (0 : Fin 3) < 28 ∧ win1_6.index t (1 : Fin 3) < 8
    ∧ ((grid1.coords t) 1).val = win1_6.index t (0 : Fin 3) :=
  (by decide +kernel : ∀ t : Fin grid1.N, _)

/-! ### Each operand's block at a point, read off its array -/

theorem blk_ti (c : Dev nD) (t : Fin cfg1.N) (r j : Fin 256) (k : S28x2048x256.Idx)
    (hk0 : (k 0).val = win1_6.index t (0 : Fin 3) - 1) (hk1 : (k 1).val = win1_6.index t (1 : Fin 3) * 256 + r.val) (hk2 : (k 2).val = j.val) :
    (iblk1 V c 0 t : FVec Ideal S1x256x256 .f32) (ix3 (0 : Fin 1) r j) = (V c main_v4 : S28x2048x256.Idx → EReal) k := by
  obtain ⟨e0, e1, e2, -⟩ := idx1 t
  unfold iblk1
  rw [View.read_apply]
  show V c main_v4 _ = V c main_v4 _
  refine congrArg _ (funext fun a => Fin.ext ?_)
  match a with
  | ⟨0, _⟩ => show win1_0.index t (0 : Fin 3) * 1 + 1 * 0 = (k 0).val; rw [e0, hk0]; omega
  | ⟨1, _⟩ => show win1_0.index t (1 : Fin 3) * 256 + 1 * r.val = (k 1).val; rw [e1, hk1]; omega
  | ⟨2, _⟩ => show win1_0.index t (2 : Fin 3) * 256 + 1 * j.val = (k 2).val; rw [e2, hk2]; omega

theorem blk_gi (c : Dev nD) (t : Fin cfg1.N) (r : Fin 256) (e : Fin 3072) (k : S2048x3072.Idx)
    (hk0 : (k 0).val = win1_6.index t (1 : Fin 3) * 256 + r.val) (hk1 : (k 1).val = e.val) :
    (iblk1 V c 1 t : FVec Ideal S256x3072 .f32) (ix2 r e) = (V c main_v5 : S2048x3072.Idx → EReal) k := by
  obtain ⟨-, -, -, e0, e1, -⟩ := idx1 t
  unfold iblk1
  rw [View.read_apply]
  show V c main_v5 _ = V c main_v5 _
  refine congrArg _ (funext fun a => Fin.ext ?_)
  match a with
  | ⟨0, _⟩ => show win1_1.index t (0 : Fin 2) * 256 + 1 * r.val = (k 0).val; rw [e0, hk0]; omega
  | ⟨1, _⟩ => show win1_1.index t (1 : Fin 2) * 3072 + 1 * e.val = (k 1).val; rw [e1, hk1]; omega

theorem blk_whh (c : Dev nD) (t : Fin cfg1.N) (e : Fin 3072) (k : Fin 1024) :
    (iblk1 V c 2 t : FVec Ideal S3072x1024 .bf16) (ix2 e k) = (V c main_v3 : S3072x1024.Idx → EReal) (ix2 e k) := by
  obtain ⟨-, -, -, -, -, e0, e1, -⟩ := idx1 t
  unfold iblk1
  rw [View.read_apply]
  show V c main_v3 _ = V c main_v3 _
  refine congrArg _ (funext fun a => Fin.ext ?_)
  match a with
  | ⟨0, _⟩ => show win1_2.index t (0 : Fin 2) * 3072 + 1 * e.val = e.val; rw [e0]; omega
  | ⟨1, _⟩ => show win1_2.index t (1 : Fin 2) * 1024 + 1 * k.val = k.val; rw [e1]; omega

theorem blk_bhh (c : Dev nD) (t : Fin cfg1.N) (e : Fin 3072) :
    (iblk1 V c 3 t : FVec Ideal S3072 .f32) (ix1 e) = (V c main_arg8 : S3072.Idx → EReal) (ix1 e) := by
  obtain ⟨-, -, -, -, -, -, -, e0, -⟩ := idx1 t
  unfold iblk1
  rw [View.read_apply]
  show V c main_arg8 _ = V c main_arg8 _
  refine congrArg _ (funext fun a => Fin.ext ?_)
  match a with
  | ⟨0, _⟩ => show win1_3.index t (0 : Fin 1) * 3072 + 1 * e.val = e.val; rw [e0]; omega

theorem blk_gam (c : Dev nD) (t : Fin cfg1.N) (d : Fin 1024) :
    (iblk1 V c 4 t : FVec Ideal S1024 .f32) (ix1 d) = (V c main_arg9 : S1024.Idx → EReal) (ix1 d) := by
  obtain ⟨-, -, -, -, -, -, -, -, e0, -⟩ := idx1 t
  unfold iblk1
  rw [View.read_apply]
  show V c main_arg9 _ = V c main_arg9 _
  refine congrArg _ (funext fun a => Fin.ext ?_)
  match a with
  | ⟨0, _⟩ => show win1_4.index t (0 : Fin 1) * 1024 + 1 * d.val = d.val; rw [e0]; omega

theorem blk_bet (c : Dev nD) (t : Fin cfg1.N) (d : Fin 1024) :
    (iblk1 V c 5 t : FVec Ideal S1024 .f32) (ix1 d) = (V c main_arg10 : S1024.Idx → EReal) (ix1 d) := by
  obtain ⟨-, -, -, -, -, -, -, -, -, e0, -⟩ := idx1 t
  unfold iblk1
  rw [View.read_apply]
  show V c main_arg10 _ = V c main_arg10 _
  refine congrArg _ (funext fun a => Fin.ext ?_)
  match a with
  | ⟨0, _⟩ => show win1_5.index t (0 : Fin 1) * 1024 + 1 * d.val = d.val; rw [e0]; omega

/-! ### A stored entry as an entry of `outAt` -/

/-- Row `r` of the previous state at point `t` is the previous state of batch row `B` at step `T`, `(T, B)` the row's place
    in the output. -/
theorem hRow_eq (c : Dev nD) (t : Fin cfg1.N) (r : Fin 256) (T : Fin 28) (B : Fin 2048)
    (hT' : T.val = win1_6.index t (0 : Fin 3)) (hB : B.val = win1_6.index t (1 : Fin 3) * 256 + r.val) :
    hRow (grid1.coords t) (iblk1 V c 0 t) r = hT (V c main_v4) T B := by
  have hc : ((grid1.coords t) 1).val = T.val := by rw [hT']; exact (idx1 t).2.2.2.2.2.2.2.2.2.2.2.2.2
  funext k
  unfold hRow hT
  by_cases h0 : T.val = 0
  · rw [if_pos (hc.trans h0), if_pos h0]
  · rw [if_neg (fun h => h0 (hc.symm.trans h)), if_neg h0]
    exact blk_ti V c t r _ _ (by show T.val - 1 = _; rw [hT']) hB rfl

theorem ghRow_eq (c : Dev nD) (t : Fin cfg1.N) (r : Fin 256) (T : Fin 28) (B : Fin 2048)
    (hT' : T.val = win1_6.index t (0 : Fin 3)) (hB : B.val = win1_6.index t (1 : Fin 3) * 256 + r.val) :
    ghRow (grid1.coords t) (iblk1 V c 0 t) (iblk1 V c 2 t) (iblk1 V c 3 t) r = ghT (V c main_v4) (V c main_v3) (V c main_arg8) T B := by
  funext e
  unfold ghRow ghT
  rw [hRow_eq V c t r T B hT' hB]
  exact congrArg₂ (· + ·) (Finset.sum_congr rfl fun k _ => congrArg (hT (V c main_v4) T B k * ·) (blk_whh V c t e k)) (blk_bhh V c t e)

theorem entry_eq (c : Dev nD) (t : Fin cfg1.N) (r : Fin 256) (d : Fin 1024) (T : Fin 28) (B : Fin 2048)
    (hT' : T.val = win1_6.index t (0 : Fin 3)) (hB : B.val = win1_6.index t (1 : Fin 3) * 256 + r.val) :
    Cert.GruNorm.layerNorm (preRow (grid1.coords t) (iblk1 V c 0 t) (iblk1 V c 1 t) (iblk1 V c 2 t) (iblk1 V c 3 t) r)
      (iblk1 V c 4 t) (iblk1 V c 5 t) d = outAt V c T B d := by
  have h1 : (fun e : Fin 3072 => (iblk1 V c 1 t : FVec Ideal S256x3072 .f32) (ix2 r e))
      = fun e => (V c main_v5 : S2048x3072.Idx → EReal) (ix2 B e) :=
    funext fun e => blk_gi V c t r e _ hB rfl
  unfold outAt preRow
  rw [h1, ghRow_eq V c t r T B hT' hB, hRow_eq V c t r T B hT' hB]
  unfold Cert.GruNorm.layerNorm
  rw [blk_gam V c t d, blk_bet V c t d]

/-! ### What a point writes back, the cover, the array -/

theorem flushed_eq (c : Dev nD) (t : Fin cfg1.N) :
    (dat1 V c).flushed 6 t = ((cfg1.win 6).blk t).view.read (Elt Ideal) (outOf V c) := by
  show (cfg1.win 6).cut (grid1.coords t) ((dat1 V c).after 6 t) = _
  rw [after1_6]
  unfold out1_6
  rw [View.canon_unit_zero hz3]
  simp only [View.ld_unit_zero (S := S1x256x256) hz3, View.ld_unit_zero (S := S3072x1024) hz2, View.ld_unit_zero (S := S3072) hz1,
    View.ld_unit_zero (S := S256x3072) hz2, View.ld_unit_zero (S := S1024) hz1]
  obtain ⟨-, -, -, -, -, -, -, -, -, -, e2, -⟩ := idx1 t
  funext y
  obtain ⟨u, r, d, rfl⟩ : ∃ (u : Fin 1) (r : Fin 256) (d : Fin 1024), y = ix3 u r d := ⟨y 0, y 1, y 2, eq_ix3 y⟩
  rw [View.read_apply]
  have hI0 : ((((cfg1.win 6).blk t).view.emb (ix3 u r d)) 0).val = win1_6.index t (0 : Fin 3) := by
    show win1_6.index t (0 : Fin 3) * 1 + 1 * u.val = _; have := u.isLt; omega
  have hI1 : ((((cfg1.win 6).blk t).view.emb (ix3 u r d)) 1).val = win1_6.index t (1 : Fin 3) * 256 + r.val := by
    show win1_6.index t (1 : Fin 3) * 256 + 1 * r.val = _; omega
  have hI2 : ((((cfg1.win 6).blk t).view.emb (ix3 u r d)) 2).val = d.val := by
    show win1_6.index t (2 : Fin 3) * 1024 + 1 * d.val = _; rw [e2]; omega
  show k1_pay1 (F := Ideal) (k1_pay2 (grid1.coords t) (iblk1 V c 0 t) (iblk1 V c 2 t) (iblk1 V c 3 t) (iblk1 V c 1 t))
    (k1_pay3 (grid1.coords t) (iblk1 V c 0 t) (iblk1 V c 2 t) (iblk1 V c 3 t) (iblk1 V c 1 t)) (iblk1 V c 4 t) (iblk1 V c 5 t) (ix3 u r d) = _
  refine (gru_entry (grid1.coords t) (iblk1 V c 0 t) (iblk1 V c 1 t) (iblk1 V c 2 t) (iblk1 V c 3 t) (iblk1 V c 4 t) (iblk1 V c 5 t) u r d).trans ?_
  have hd : (((((cfg1.win 6).blk t).view.emb (ix3 u r d)) 2 : Fin 1024)) = d := Fin.ext hI2
  show _ = outAt V c _ _ ((((cfg1.win 6).blk t).view.emb (ix3 u r d)) 2 : Fin 1024)
  rw [hd]
  exact entry_eq V c t r d _ _ hI0 hI1

/-- An index of the output is in point `t`'s block iff each coordinate is in the block's range on its axis. -/
theorem mem_blk (t : Fin cfg1.N) (i : S28x2048x1024.Idx) :
    i ∈ ((cfg1.win 6).blk t).view.set ↔ ∀ a : Fin 3, win1_6.index t a * S1x256x1024.size a ≤ (i a).val ∧ (i a).val < win1_6.index t a * S1x256x1024.size a + S1x256x1024.size a := by
  show i ∈ ((View.whole main_v6).slice (win1_6.rect t)).set ↔ _
  rw [View.set_slice_whole, Rect.mem_set_unit]
  exact Iff.rfl

/-- Every (time, batch block) pair is some point's. -/
theorem idx_onto : ∀ (q0 : Fin 28) (q1 : Fin 8), ∃ t : Fin cfg1.N, win1_6.index t = ![q0.val, q1.val, 0] :=
  (by decide +kernel : ∀ (q0 : Fin 28) (q1 : Fin 8), ∃ t : Fin grid1.N, win1_6.index t = ![q0.val, q1.val, 0])

/-- The 224 blocks cover the output. -/
theorem cover (i : S28x2048x1024.Idx) : ∃ t : Fin cfg1.N, (cfg1.win 6).flush t = true ∧ i ∈ ((cfg1.win 6).blk t).view.set := by
  have hi0 : (i 0).val < 28 := (i 0).isLt
  have hi1 : (i 1).val < 2048 := (i 1).isLt
  have hi2 : (i 2).val < 1024 := (i 2).isLt
  obtain ⟨t, ht⟩ := idx_onto ⟨(i 0).val, hi0⟩ ⟨(i 1).val / 256, by omega⟩
  have q0 : win1_6.index t (0 : Fin 3) = (i 0).val := congrFun ht 0
  have q1 : win1_6.index t (1 : Fin 3) = (i 1).val / 256 := congrFun ht 1
  have q2 : win1_6.index t (2 : Fin 3) = 0 := congrFun ht 2
  refine ⟨t, flush1_6 t, ?_⟩
  rw [mem_blk]
  intro a
  match a with
  | ⟨0, _⟩ => show win1_6.index t (0 : Fin 3) * 1 ≤ (i 0).val ∧ (i 0).val < win1_6.index t (0 : Fin 3) * 1 + 1; omega
  | ⟨1, _⟩ => show win1_6.index t (1 : Fin 3) * 256 ≤ (i 1).val ∧ (i 1).val < win1_6.index t (1 : Fin 3) * 256 + 256; omega
  | ⟨2, _⟩ => show win1_6.index t (2 : Fin 3) * 1024 ≤ (i 2).val ∧ (i 2).val < win1_6.index t (2 : Fin 3) * 1024 + 1024; omega

/-- After the region the output array holds `outOf` of the operand arrays. -/
theorem final (c : Dev nD) : (dat1 V c).arrAt 6 cfg1.N = outOf V c :=
  (dat1 V c).arrAt_eq_of_cover 6 (outOf V c) (fun t _ => flushed_eq V c t) cover

end Cert.KernelIdeal.GruArr

end
-- ==== Proof.EntryContents.lean ====
/-
  What the two regions find in the arrays they read, in terms of the launch memory.

  Before the first region the host converts `z`, `fcw`, `wih` and `whh` to a narrower float format — the identity on the
  extended reals — and transposes the teacher inputs [2048, 28, 256] to time-major [28, 2048, 256]; the bias, scale and shift
  vectors are read as launched. The second region is entered from the first one's exit: the input gates' array is what the
  first region's write-backs left, every other array is as the first region found it.
-/
import proofs.«136537_j72421738545905_1_alg».proof.Proof.FrameKernelIdeal
import Idealize.ShloMosaic.Lib.Pipeline.Value
import Idealize.ShloMosaic.Lib.ValueIdx
import Idealize.ShloMosaic.Lib.StableHlo.Run

noncomputable section

open Idealize.ShloMosaic Idealize.ShloMosaic.TcCoe Idealize.SL.Sem Idealize.ShloMosaic.ValueIdx Idealize.ShloMosaic.StableHlo

namespace Cert.KernelIdeal.Entry

open Cert.KernelIdeal Cert.KernelIdeal.Gen Cert.KernelIdeal.GenP

variable (m : (ℓ : Loc nD τ sig) → Buf (Elt Ideal) ℓ) (ρ : Dev nD → PrngReg)

/-! ### The first region's entry -/

theorem V1_v0 (c : Dev nD) : (V1 m ρ c main_v0 : S2048x512.Idx → EReal) = (m ((c : Thread nD τ).loc main_arg0) : S2048x512.Idx → EReal) := by
  show StableHlo.after hostOps0 (W0 m ρ c) (Proc.devRef .tc main_v0) = _
  after_results <;> rfl
theorem V1_v1 (c : Dev nD) : (V1 m ρ c main_v1 : S1024x512.Idx → EReal) = (m ((c : Thread nD τ).loc main_arg3) : S1024x512.Idx → EReal) := by
  show StableHlo.after hostOps0 (W0 m ρ c) (Proc.devRef .tc main_v1) = _
  after_results <;> rfl
theorem V1_v2 (c : Dev nD) : (V1 m ρ c main_v2 : S3072x1024.Idx → EReal) = (m ((c : Thread nD τ).loc main_arg5) : S3072x1024.Idx → EReal) := by
  show StableHlo.after hostOps0 (W0 m ρ c) (Proc.devRef .tc main_v2) = _
  after_results <;> rfl
theorem V1_v3 (c : Dev nD) : (V1 m ρ c main_v3 : S3072x1024.Idx → EReal) = (m ((c : Thread nD τ).loc main_arg6) : S3072x1024.Idx → EReal) := by
  show StableHlo.after hostOps0 (W0 m ρ c) (Proc.devRef .tc main_v3) = _
  after_results <;> rfl
theorem V1_v4 (c : Dev nD) : (V1 m ρ c main_v4 : S28x2048x256.Idx → EReal)
    = transpose S28x2048x256 [1, 0, 2] (m ((c : Thread nD τ).loc main_arg1) : S2048x28x256.Idx → EReal) transposes_S2048x28x256_S28x2048x256_1_0_2 := by
  show StableHlo.after hostOps0 (W0 m ρ c) (Proc.devRef .tc main_v4) = _
  after_results <;> rfl
theorem V1_arg4 (c : Dev nD) : V1 m ρ c main_arg4 = m ((c : Thread nD τ).loc main_arg4) := by
  show StableHlo.after hostOps0 (W0 m ρ c) (Proc.devRef .tc main_arg4) = _
  after_results <;> rfl
theorem V1_arg7 (c : Dev nD) : V1 m ρ c main_arg7 = m ((c : Thread nD τ).loc main_arg7) := by
  show StableHlo.after hostOps0 (W0 m ρ c) (Proc.devRef .tc main_arg7) = _
  after_results <;> rfl
theorem V1_arg8 (c : Dev nD) : V1 m ρ c main_arg8 = m ((c : Thread nD τ).loc main_arg8) := by
  show StableHlo.after hostOps0 (W0 m ρ c) (Proc.devRef .tc main_arg8) = _
  after_results <;> rfl
theorem V1_arg9 (c : Dev nD) : V1 m ρ c main_arg9 = m ((c : Thread nD τ).loc main_arg9) := by
  show StableHlo.after hostOps0 (W0 m ρ c) (Proc.devRef .tc main_arg9) = _
  after_results <;> rfl
theorem V1_arg10 (c : Dev nD) : V1 m ρ c main_arg10 = m ((c : Thread nD τ).loc main_arg10) := by
  show StableHlo.after hostOps0 (W0 m ρ c) (Proc.devRef .tc main_arg10) = _
  after_results <;> rfl

/-- The time-major teacher inputs at `(s, b, j)` are the launched ones at `(b, s, j)`. -/
theorem V1_v4_apply (c : Dev nD) (s : Fin 28) (b : Fin 2048) (j : Fin 256) :
    (V1 m ρ c main_v4 : S28x2048x256.Idx → EReal) (ix3 s b j) = (m ((c : Thread nD τ).loc main_arg1) : S2048x28x256.Idx → EReal) (ix3 b s j) := by
  rw [V1_v4]
  exact transpose_apply [1, 0, 2] _ transposes_S2048x28x256_S28x2048x256_1_0_2 (ix3 s b j) (ix3 b s j) (fun a => match a with
    | ⟨0, _⟩ => rfl
    | ⟨1, _⟩ => rfl
    | ⟨2, _⟩ => rfl)

/-! ### The second region's entry -/

theorem V2_v5 (c : Dev nD) : V2 m ρ c main_v5 = (dat0 (V1 m ρ) c).arrAt 5 cfg0.N := W2_arr m ρ c 5
theorem V2_v4 (c : Dev nD) : V2 m ρ c main_v4 = V1 m ρ c main_v4 := W2_of_ne m ρ c main_v4 (by decide)
theorem V2_v3 (c : Dev nD) : V2 m ρ c main_v3 = V1 m ρ c main_v3 := W2_of_ne m ρ c main_v3 (by decide)
theorem V2_arg8 (c : Dev nD) : V2 m ρ c main_arg8 = V1 m ρ c main_arg8 := W2_of_ne m ρ c main_arg8 (by decide)
theorem V2_arg9 (c : Dev nD) : V2 m ρ c main_arg9 = V1 m ρ c main_arg9 := W2_of_ne m ρ c main_arg9 (by decide)
theorem V2_arg10 (c : Dev nD) : V2 m ρ c main_arg10 = V1 m ρ c main_arg10 := W2_of_ne m ρ c main_arg10 (by decide)

end Cert.KernelIdeal.Entry

end
-- ==== Proof.KernelValue.lean ====
/-
  The idealized kernel's result, as the specification's function of the launched arguments.

  The second region's output array is the layer-normed gated blend over the arrays that region is entered with; among those the
  input gates' array is the first region's output, `gi` of the arrays the first region is entered with; and those are the
  launched arguments (the host's format conversions are the identity on the extended reals, the teacher inputs arrive
  time-major). Put together, the result array ends at `Cert.GruNorm.out` of the launched arguments.
-/
import proofs.«136537_j72421738545905_1_alg».proof.Proof.KernelRun
import proofs.«136537_j72421738545905_1_alg».proof.Proof.GiArray
import proofs.«136537_j72421738545905_1_alg».proof.Proof.GruArray
import proofs.«136537_j72421738545905_1_alg».proof.Proof.EntryContents
import proofs.«136537_j72421738545905_1_alg».proof.Proof.Spec

noncomputable section

open Idealize.ShloMosaic Idealize.ShloMosaic.TcCoe Idealize.SL.Sem Idealize.ShloMosaic.ValueIdx
open scoped BigOperators

namespace Cert.KernelIdeal.Whole

open Cert.KernelIdeal Cert.KernelIdeal.Gen Cert.KernelIdeal.GenP

variable (m : (ℓ : Loc nD τ sig) → Buf (Elt Ideal) ℓ) (ρ : Dev nD → PrngReg)

/-- The input gates' array the second region finds, at `(b, e)`. -/
theorem gi_final (c : Dev nD) (b : Fin 2048) (e : Fin 3072) :
    (V2 m ρ c main_v5 : S2048x3072.Idx → EReal) (ix2 b e)
      = Cert.GruNorm.gi (m ((c : Thread nD τ).loc main_arg0)) (m ((c : Thread nD τ).loc main_arg3)) (m ((c : Thread nD τ).loc main_arg4)) (m ((c : Thread nD τ).loc main_arg5)) (m ((c : Thread nD τ).loc main_arg7)) b e := by
  rw [Entry.V2_v5, GiArr.final (V1 m ρ) c]
  unfold GiArr.giOf
  rw [Entry.V1_v0, Entry.V1_v1, Entry.V1_arg4, Entry.V1_v2, Entry.V1_arg7]

/-- The previous state over the time-major teacher inputs the second region finds is the specification's over the launched ones. -/
theorem hT_final (c : Dev nD) (T : Fin 28) (B : Fin 2048) :
    GruArr.hT (V2 m ρ c main_v4) T B = Cert.GruNorm.hprev (m ((c : Thread nD τ).loc main_arg1)) T B := by
  funext k
  unfold GruArr.hT Cert.GruNorm.hprev
  by_cases h0 : T.val = 0
  · rw [if_pos h0, if_pos h0]
  · rw [if_neg h0, if_neg h0, Entry.V2_v4]
    exact Entry.V1_v4_apply m ρ c _ B _

theorem ghT_final (c : Dev nD) (T : Fin 28) (B : Fin 2048) :
    GruArr.ghT (V2 m ρ c main_v4) (V2 m ρ c main_v3) (V2 m ρ c main_arg8) T B
      = Cert.GruNorm.gh (m ((c : Thread nD τ).loc main_arg1)) (m ((c : Thread nD τ).loc main_arg6)) (m ((c : Thread nD τ).loc main_arg8)) T B := by
  funext e
  unfold GruArr.ghT Cert.GruNorm.gh
  rw [hT_final, Entry.V2_v3, Entry.V1_v3, Entry.V2_arg8, Entry.V1_arg8]

/-- The result array after the run is the specification's function of the launched arguments. -/
theorem out_final (c : Dev nD) :
    (dat1 (V2 m ρ) c).arrAt 6 cfg1.N
      = Cert.GruNorm.out (m ((c : Thread nD τ).loc main_arg0)) (m ((c : Thread nD τ).loc main_arg1)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) := by
  rw [GruArr.final (V2 m ρ) c]
  funext i
  obtain ⟨t, b, d, rfl⟩ : ∃ (t : Fin 28) (b : Fin 2048) (d : Fin 1024), i = ix3 t b d := ⟨i 0, i 1, i 2, eq_ix3 i⟩
  rw [Cert.GruNorm.out_apply]
  show GruArr.outAt (V2 m ρ) c t b d = _
  have h1 : (fun e : Fin 3072 => (V2 m ρ c main_v5 : S2048x3072.Idx → EReal) (ix2 b e))
      = Cert.GruNorm.gi (m ((c : Thread nD τ).loc main_arg0)) (m ((c : Thread nD τ).loc main_arg3)) (m ((c : Thread nD τ).loc main_arg4)) (m ((c : Thread nD τ).loc main_arg5)) (m ((c : Thread nD τ).loc main_arg7)) b :=
    funext fun e => gi_final m ρ c b e
  unfold GruArr.outAt Cert.GruNorm.pre
  rw [h1, ghT_final, hT_final, Entry.V2_arg9, Entry.V1_arg9, Entry.V2_arg10, Entry.V1_arg10]

/-- The run: every weakly fair execution terminates with the result at the specification's function of the launched
    arguments, and the arguments as launched. -/
theorem run : θ_run defs (onTc (τ := τ) (main (F := Ideal))) ⟨m, fun _ => 0, ρ⟩ (fun r => ∀ c : Dev nD,
      r.2.mem ((c.tc : Thread nD τ).loc main_v6)
        = Cert.GruNorm.out (m ((c : Thread nD τ).loc main_arg0)) (m ((c : Thread nD τ).loc main_arg1)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)) :=
  (θ_run defs _ _).mono (fun r h c => ⟨(h c).1.trans (out_final m ρ c), (h c).2⟩) (run_named (F := Ideal) m ρ)

end Cert.KernelIdeal.Whole

end
-- ==== Proof.RefTile.lean ====
/-
  Layout facts behind the previous-step teacher state, stated over literal shapes and any element type; no program is
  imported here.

  * A [2048, 28, 256] array viewed as [1, 2048, 1, 28, 1, 256], repeated four times along the fifth axis and viewed as
    [2048, 28, 1024], reads at (b, s, k) the original array at (b, s, k mod 256): position k of the long last axis is
    repetition k / 256, entry k mod 256, and 256 * (k / 256) + k mod 256 = k.
  * One [1, 2048, 1024] slab joined in front of a [28, 2048, 1024] array along the first axis reads the slab at row 0
    and the array's row s at row s + 1.
  * The f32 word 0x3F800000 is the number 1.
-/
import Idealize.ShloMosaic.Lib.ValueIdx
import Idealize.ShloMosaic.Lib.ValueIdxRank6
import Idealize.ShloMosaic.Lib.Pipeline.Value
import Idealize.ShloMosaic.PureOps.Ideal.Laws

noncomputable section

namespace Cert.ReferenceIdeal.RefValue

open Idealize.ShloMosaic Idealize.ShloMosaic.ValueIdx

/-- The f32 word of the number one. -/
theorem ofBits_one_f32 : Ideal.ofBits .f32 0x3F800000#32 = 1 := by
  simp [Ideal.ofBits, Ideal.ieee, -EReal.coe_mul]; norm_num

/-- Entry `k mod 256` of a row of 256. -/
abbrev modCol (k : Fin 1024) : Fin 256 := ⟨k.val % 256, Nat.mod_lt _ (by decide)⟩

/-- The four-fold tiling of the last axis, read at an index. -/
theorem tile_apply {α : Type} (x : (⟨3, ![2048, 28, 256]⟩ : Shape).Idx → α)
    (h5 : (⟨3, ![2048, 28, 256]⟩ : Shape).ShapeCasts ⟨6, ![1, 2048, 1, 28, 1, 256]⟩)
    (h6 : (⟨6, ![1, 2048, 1, 28, 1, 256]⟩ : Shape).BroadcastsInDim ⟨6, ![1, 2048, 1, 28, 4, 256]⟩ ![0, 1, 2, 3, 4, 5])
    (h7 : (⟨6, ![1, 2048, 1, 28, 4, 256]⟩ : Shape).ShapeCasts ⟨3, ![2048, 28, 1024]⟩)
    (b : Fin 2048) (s : Fin 28) (k : Fin 1024) :
    shapeCast ⟨3, ![2048, 28, 1024]⟩ (broadcastInDim ⟨6, ![1, 2048, 1, 28, 4, 256]⟩ ![0, 1, 2, 3, 4, 5] h6
      (shapeCast ⟨6, ![1, 2048, 1, 28, 1, 256]⟩ x h5)) h7 (ix3 b s k) = x (ix3 b s (modCol k)) := by
  have hk := k.isLt
  have hb := b.isLt
  have hs := s.isLt
  have hq : k.val / 256 < 4 := by omega
  have hm : k.val % 256 < 256 := Nat.mod_lt _ (by decide)
  refine (shapeCast_apply _ h7 (ix3 b s k)
    (ix6 (⟨0, Nat.one_pos⟩ : Fin 1) b (⟨0, Nat.one_pos⟩ : Fin 1) s (⟨k.val / 256, hq⟩ : Fin 4) (modCol k)) ?_).trans ?_
  · rw [Shape.rowMajor_val_six, Shape.rowMajor_val_three]
    show ((((0 * 2048 + b.val) * 1 + 0) * 28 + s.val) * 4 + k.val / 256) * 256 + k.val % 256
      = (b.val * 28 + s.val) * 1024 + k.val
    omega
  refine (broadcastInDim_apply _ h6 _ _
    (ix6 (⟨0, Nat.one_pos⟩ : Fin 1) b (⟨0, Nat.one_pos⟩ : Fin 1) s (⟨0, Nat.one_pos⟩ : Fin 1) (modCol k))
    (fun a => match a with
      | ⟨0, _⟩ => by show 0 = if (1 : Nat) = 1 then 0 else 0; rw [if_pos rfl]
      | ⟨1, _⟩ => by show b.val = if (2048 : Nat) = 1 then 0 else b.val; rw [if_neg (by decide)]
      | ⟨2, _⟩ => by show 0 = if (1 : Nat) = 1 then 0 else 0; rw [if_pos rfl]
      | ⟨3, _⟩ => by show s.val = if (28 : Nat) = 1 then 0 else s.val; rw [if_neg (by decide)]
      | ⟨4, _⟩ => by show 0 = if (1 : Nat) = 1 then 0 else k.val / 256; rw [if_pos rfl]
      | ⟨5, _⟩ => by show k.val % 256 = if (256 : Nat) = 1 then 0 else k.val % 256; rw [if_neg (by decide)])).trans ?_
  refine shapeCast_apply _ h5 _ (ix3 b s (modCol k)) ?_
  rw [Shape.rowMajor_val_six, Shape.rowMajor_val_three]
  show (b.val * 28 + s.val) * 256 + k.val % 256
    = ((((0 * 2048 + b.val) * 1 + 0) * 28 + s.val) * 1 + 0) * 256 + k.val % 256
  omega

/-- Row 0 of the joined array is the slab in front. -/
theorem concat_front_apply {α : Type} (x₁ : (⟨3, ![1, 2048, 1024]⟩ : Shape).Idx → α)
    (x₂ : (⟨3, ![28, 2048, 1024]⟩ : Shape).Idx → α)
    (h : Shape.Concatenates [(⟨3, ![1, 2048, 1024]⟩ : Shape), ⟨3, ![28, 2048, 1024]⟩] ⟨3, ![29, 2048, 1024]⟩ 0)
    (b : Fin 2048) (k : Fin 1024) :
    concatenate ⟨3, ![29, 2048, 1024]⟩ 0 [⟨⟨3, ![1, 2048, 1024]⟩, x₁⟩, ⟨⟨3, ![28, 2048, 1024]⟩, x₂⟩] h
      (ix3 (⟨0, by decide⟩ : Fin 29) b k) = x₁ (ix3 (⟨0, Nat.one_pos⟩ : Fin 1) b k) :=
  concatenate_pair_apply_left 0 x₁ x₂ h _ rfl _ (fun a => match a with
    | ⟨0, _⟩ => rfl
    | ⟨1, _⟩ => rfl
    | ⟨2, _⟩ => rfl)

/-- Row `s + 1` of the joined array is row `s` of the second piece. -/
theorem concat_back_apply {α : Type} (x₁ : (⟨3, ![1, 2048, 1024]⟩ : Shape).Idx → α)
    (x₂ : (⟨3, ![28, 2048, 1024]⟩ : Shape).Idx → α)
    (h : Shape.Concatenates [(⟨3, ![1, 2048, 1024]⟩ : Shape), ⟨3, ![28, 2048, 1024]⟩] ⟨3, ![29, 2048, 1024]⟩ 0)
    (s : Fin 28) (b : Fin 2048) (k : Fin 1024) :
    concatenate ⟨3, ![29, 2048, 1024]⟩ 0 [⟨⟨3, ![1, 2048, 1024]⟩, x₁⟩, ⟨⟨3, ![28, 2048, 1024]⟩, x₂⟩] h
      (ix3 (⟨s.val + 1, by have := s.isLt; omega⟩ : Fin 29) b k) = x₂ (ix3 s b k) :=
  concatenate_pair_apply_right 0 x₁ x₂ h _ rfl rfl _ (fun a ha => match a, ha with
    | ⟨0, _⟩, ha => absurd rfl ha
    | ⟨1, _⟩, _ => rfl
    | ⟨2, _⟩, _ => rfl) rfl

end Cert.ReferenceIdeal.RefValue

end
-- ==== Proof.RefGh.lean ====
/-
  The reference's hidden side, read index by index. The previous step's teacher state is one zero slab joined in front
  of the tiled, time-major teacher inputs, cut back to 28 rows: row 0 is zero, and row s + 1 reads teacher step s at
  entry k mod 256. The hidden gates' pre-activations are its product against the hidden weights plus a bias row.
-/
import proofs.«136537_j72421738545905_1_alg».proof.Proof.Gen.ReferenceIdeal.Read
import proofs.«136537_j72421738545905_1_alg».proof.Proof.Spec
import proofs.«136537_j72421738545905_1_alg».proof.Proof.RefTile
import Idealize.ShloMosaic.Lib.ValueIdx
import Idealize.ShloMosaic.PureOps.Ideal.Laws

noncomputable section

namespace Cert.ReferenceIdeal.RefValue

open Cert.ReferenceIdeal Idealize.ShloMosaic Idealize.ShloMosaic.ValueIdx
open scoped BigOperators

/-- The previous step's teacher state at `(t, b, k)`. -/
theorem v11_eq (x1 : FVec Ideal S2048x28x256 .f32) (t : Fin 28) (b : Fin 2048) (k : Fin 1024) :
    Read.val_main_v11 (F := Ideal) x1 (ix3 t b k) = Cert.GruNorm.hprev x1 t b k := by
  have htl := t.isLt
  rw [Read.val_main_v11_apply]
  unfold Cert.GruNorm.hprev Read.val_main_v10
  by_cases ht : t.val = 0
  · -- the zero slab
    rw [if_pos ht]
    have hi : Read.idx_main_v11 (ix3 t b k) = ix3 (⟨0, by decide⟩ : Fin 29) b k :=
      funext fun a => Fin.ext (by match a with | ⟨0, _⟩ => exact ht | ⟨1, _⟩ => rfl | ⟨2, _⟩ => rfl)
    rw [hi]
    refine (concat_front_apply _ _ _ b k).trans ?_
    rw [Read.val_main_v9_apply, Read.val_main_cst_apply, Ideal.ofBits_def, Ideal.ofBits_zero_f32]
  · -- teacher step t - 1, tiled
    rw [if_neg ht]
    have hi : Read.idx_main_v11 (ix3 t b k)
        = ix3 (⟨(⟨t.val - 1, by omega⟩ : Fin 28).val + 1, by show t.val - 1 + 1 < 29; omega⟩ : Fin 29) b k :=
      funext fun a => Fin.ext (by
        match a with
        | ⟨0, _⟩ => show t.val = t.val - 1 + 1; omega
        | ⟨1, _⟩ => rfl
        | ⟨2, _⟩ => rfl)
    rw [hi]
    refine (concat_back_apply _ _ _ (⟨t.val - 1, by omega⟩ : Fin 28) b k).trans ?_
    rw [Read.val_main_v8_apply]
    have hi8 : Read.idx_main_v8 (ix3 (⟨t.val - 1, by omega⟩ : Fin 28) b k) = ix3 b (⟨t.val - 1, by omega⟩ : Fin 28) k :=
      funext fun a => Fin.ext (by match a with | ⟨0, _⟩ => rfl | ⟨1, _⟩ => rfl | ⟨2, _⟩ => rfl)
    rw [hi8]
    unfold Read.val_main_v7 Read.val_main_v6 Read.val_main_v5
    exact tile_apply x1 _ _ _ b (⟨t.val - 1, by omega⟩ : Fin 28) k

/-- The hidden gates' pre-activation at `(t, b, e)`. -/
theorem v20_eq (x1 : FVec Ideal S2048x28x256 .f32) (x6 : FVec Ideal S3072x1024 .f32) (x8 : FVec Ideal S3072 .f32)
    (t : Fin 28) (b : Fin 2048) (e : Fin 3072) :
    Read.val_main_v20 (F := Ideal) x1 x6 x8 (ix3 t b e) = Cert.GruNorm.gh x1 x6 x8 t b e := by
  rw [Read.val_main_v20_apply, Read.val_main_v17_apply, Read.val_main_v19_apply, Read.val_main_v18_apply, Ideal.addf_def]
  unfold Cert.GruNorm.gh
  refine congrArg₂ (· + ·) (Finset.sum_congr rfl fun k _ => ?_) (congrArg x8 ?_)
  · refine congrArg₂ (· * ·) ?_ (congrArg x6 ?_)
    · refine Eq.trans (congrArg (Read.val_main_v11 (F := Ideal) x1) ?_) (v11_eq x1 t b k)
      exact funext fun a => Fin.ext (by match a with | ⟨0, _⟩ => rfl | ⟨1, _⟩ => rfl | ⟨2, _⟩ => rfl)
    · exact funext fun a => Fin.ext (by match a with | ⟨0, _⟩ => rfl | ⟨1, _⟩ => rfl)
  · exact funext fun a => Fin.ext (by match a with | ⟨0, _⟩ => rfl)

end Cert.ReferenceIdeal.RefValue

end
-- ==== Proof.RefGi.lean ====
/-
  The reference's input side, read index by index: the projected latent (a matrix product against the transposed
  weights plus a bias row) and the input gates' pre-activations (the same form one level up).
-/
import proofs.«136537_j72421738545905_1_alg».proof.Proof.Gen.ReferenceIdeal.Read
import proofs.«136537_j72421738545905_1_alg».proof.Proof.Spec
import Idealize.ShloMosaic.Lib.ValueIdx
import Idealize.ShloMosaic.PureOps.Ideal.Laws

noncomputable section

namespace Cert.ReferenceIdeal.RefValue

open Cert.ReferenceIdeal Idealize.ShloMosaic Idealize.ShloMosaic.ValueIdx
open scoped BigOperators

/-- The projected latent at `(b, k)`. -/
theorem v4_eq (x0 : FVec Ideal S2048x512 .f32) (x3 : FVec Ideal S1024x512 .f32) (x4 : FVec Ideal S1024 .f32)
    (b : Fin 2048) (k : Fin 1024) :
    Read.val_main_v4 (F := Ideal) x0 x3 x4 (ix2 b k) = Cert.GruNorm.xfc x0 x3 x4 b k := by
  rw [Read.val_main_v4_apply, Read.val_main_v1_apply, Read.val_main_v3_apply, Read.val_main_v2_apply, Ideal.addf_def]
  unfold Cert.GruNorm.xfc
  refine congrArg₂ (· + ·) (Finset.sum_congr rfl fun j _ => ?_) (congrArg x4 ?_)
  · rw [Read.val_main_v0_apply]
    refine congrArg₂ (· * ·) (congrArg x0 ?_) (congrArg x3 ?_)
    · exact funext fun a => Fin.ext (by match a with | ⟨0, _⟩ => rfl | ⟨1, _⟩ => rfl)
    · exact funext fun a => Fin.ext (by match a with | ⟨0, _⟩ => rfl | ⟨1, _⟩ => rfl)
  · exact funext fun a => Fin.ext (by match a with | ⟨0, _⟩ => rfl)

/-- The input gates' pre-activation at `(b, e)`. -/
theorem v16_eq (x0 : FVec Ideal S2048x512 .f32) (x3 : FVec Ideal S1024x512 .f32) (x4 : FVec Ideal S1024 .f32)
    (x5 : FVec Ideal S3072x1024 .f32) (x7 : FVec Ideal S3072 .f32) (b : Fin 2048) (e : Fin 3072) :
    Read.val_main_v16 (F := Ideal) x0 x3 x4 x5 x7 (ix2 b e) = Cert.GruNorm.gi x0 x3 x4 x5 x7 b e := by
  rw [Read.val_main_v16_apply, Read.val_main_v13_apply, Read.val_main_v15_apply, Read.val_main_v14_apply, Ideal.addf_def]
  unfold Cert.GruNorm.gi
  refine congrArg₂ (· + ·) (Finset.sum_congr rfl fun k _ => ?_) (congrArg x7 ?_)
  · rw [Read.val_main_v12_apply]
    refine congrArg₂ (· * ·) ?_ (congrArg x5 ?_)
    · refine Eq.trans (congrArg (Read.val_main_v4 (F := Ideal) x0 x3 x4) ?_) (v4_eq x0 x3 x4 b k)
      exact funext fun a => Fin.ext (by match a with | ⟨0, _⟩ => rfl | ⟨1, _⟩ => rfl)
    · exact funext fun a => Fin.ext (by match a with | ⟨0, _⟩ => rfl | ⟨1, _⟩ => rfl)
  · exact funext fun a => Fin.ext (by match a with | ⟨0, _⟩ => rfl)

end Cert.ReferenceIdeal.RefValue

end
-- ==== Proof.RefPre.lean ====
/-
  The reference's gates, read index by index. The three gate columns of a row of 3072 pre-activations are cut out at
  offsets 0, 1024 and 2048; the reset and update gates are spelt 1 / (1 + exp (−x)) with the f32 word of one, which is
  the logistic function once that word is read as the number one; the blend keeps the word in (one − u).
-/
import proofs.«136537_j72421738545905_1_alg».proof.Proof.Gen.ReferenceIdeal.Read
import proofs.«136537_j72421738545905_1_alg».proof.Proof.Spec
import proofs.«136537_j72421738545905_1_alg».proof.Proof.RefTile
import proofs.«136537_j72421738545905_1_alg».proof.Proof.RefGi
import proofs.«136537_j72421738545905_1_alg».proof.Proof.RefGh
import Idealize.ShloMosaic.Lib.ValueIdx
import Idealize.ShloMosaic.PureOps.Ideal.Laws

noncomputable section

namespace Cert.ReferenceIdeal.RefValue

open Cert.ReferenceIdeal Idealize.ShloMosaic Idealize.ShloMosaic.ValueIdx
open scoped BigOperators

/-- The reference's spelling of the logistic function. -/
theorem logistic_word (x : EReal) :
    Ideal.div (Ideal.ofBits .f32 0x3F800000#32) (Ideal.ofBits .f32 0x3F800000#32 + Ideal.exp (-x)) = Ideal.logistic x := by
  rw [ofBits_one_f32]; rfl

/-- The input side's reset column. -/
theorem v28_eq (x0 : FVec Ideal S2048x512 .f32) (x3 : FVec Ideal S1024x512 .f32) (x4 : FVec Ideal S1024 .f32)
    (x5 : FVec Ideal S3072x1024 .f32) (x7 : FVec Ideal S3072 .f32)
    (t : Fin 28) (b : Fin 2048) (d : Fin 1024) :
    Read.val_main_v28 (F := Ideal) x0 x3 x4 x5 x7 (ix3 t b d) = Cert.GruNorm.gi x0 x3 x4 x5 x7 b (Cert.GruNorm.colR d) := by
  rw [Read.val_main_v28_apply, Read.val_main_v27_apply, Read.val_main_v21_apply]
  refine Eq.trans (congrArg (Read.val_main_v16 (F := Ideal) x0 x3 x4 x5 x7) ?_) (v16_eq x0 x3 x4 x5 x7 b (Cert.GruNorm.colR d))
  exact funext fun a => Fin.ext (by match a with | ⟨0, _⟩ => rfl | ⟨1, _⟩ => rfl)

/-- The input side's update column. -/
theorem v37_eq (x0 : FVec Ideal S2048x512 .f32) (x3 : FVec Ideal S1024x512 .f32) (x4 : FVec Ideal S1024 .f32)
    (x5 : FVec Ideal S3072x1024 .f32) (x7 : FVec Ideal S3072 .f32)
    (t : Fin 28) (b : Fin 2048) (d : Fin 1024) :
    Read.val_main_v37 (F := Ideal) x0 x3 x4 x5 x7 (ix3 t b d) = Cert.GruNorm.gi x0 x3 x4 x5 x7 b (Cert.GruNorm.colU d) := by
  rw [Read.val_main_v37_apply, Read.val_main_v36_apply, Read.val_main_v22_apply]
  refine Eq.trans (congrArg (Read.val_main_v16 (F := Ideal) x0 x3 x4 x5 x7) ?_) (v16_eq x0 x3 x4 x5 x7 b (Cert.GruNorm.colU d))
  exact funext fun a => Fin.ext (by match a with | ⟨0, _⟩ => rfl | ⟨1, _⟩ => rfl)

/-- The input side's candidate column. -/
theorem v47_eq (x0 : FVec Ideal S2048x512 .f32) (x3 : FVec Ideal S1024x512 .f32) (x4 : FVec Ideal S1024 .f32)
    (x5 : FVec Ideal S3072x1024 .f32) (x7 : FVec Ideal S3072 .f32)
    (t : Fin 28) (b : Fin 2048) (d : Fin 1024) :
    Read.val_main_v47 (F := Ideal) x0 x3 x4 x5 x7 (ix3 t b d) = Cert.GruNorm.gi x0 x3 x4 x5 x7 b (Cert.GruNorm.colN d) := by
  rw [Read.val_main_v47_apply, Read.val_main_v46_apply, Read.val_main_v23_apply]
  refine Eq.trans (congrArg (Read.val_main_v16 (F := Ideal) x0 x3 x4 x5 x7) ?_) (v16_eq x0 x3 x4 x5 x7 b (Cert.GruNorm.colN d))
  exact funext fun a => Fin.ext (by match a with | ⟨0, _⟩ => rfl | ⟨1, _⟩ => rfl)

/-- The hidden side's reset column. -/
theorem v24_eq (x1 : FVec Ideal S2048x28x256 .f32) (x6 : FVec Ideal S3072x1024 .f32) (x8 : FVec Ideal S3072 .f32)
    (t : Fin 28) (b : Fin 2048) (d : Fin 1024) :
    Read.val_main_v24 (F := Ideal) x1 x6 x8 (ix3 t b d) = Cert.GruNorm.gh x1 x6 x8 t b (Cert.GruNorm.colR d) := by
  rw [Read.val_main_v24_apply]
  refine Eq.trans (congrArg (Read.val_main_v20 (F := Ideal) x1 x6 x8) ?_) (v20_eq x1 x6 x8 t b (Cert.GruNorm.colR d))
  exact funext fun a => Fin.ext (by match a with | ⟨0, _⟩ => rfl | ⟨1, _⟩ => rfl | ⟨2, _⟩ => rfl)

/-- The hidden side's update column. -/
theorem v25_eq (x1 : FVec Ideal S2048x28x256 .f32) (x6 : FVec Ideal S3072x1024 .f32) (x8 : FVec Ideal S3072 .f32)
    (t : Fin 28) (b : Fin 2048) (d : Fin 1024) :
    Read.val_main_v25 (F := Ideal) x1 x6 x8 (ix3 t b d) = Cert.GruNorm.gh x1 x6 x8 t b (Cert.GruNorm.colU d) := by
  rw [Read.val_main_v25_apply]
  refine Eq.trans (congrArg (Read.val_main_v20 (F := Ideal) x1 x6 x8) ?_) (v20_eq x1 x6 x8 t b (Cert.GruNorm.colU d))
  exact funext fun a => Fin.ext (by match a with | ⟨0, _⟩ => rfl | ⟨1, _⟩ => rfl | ⟨2, _⟩ => rfl)

/-- The hidden side's candidate column. -/
theorem v26_eq (x1 : FVec Ideal S2048x28x256 .f32) (x6 : FVec Ideal S3072x1024 .f32) (x8 : FVec Ideal S3072 .f32)
    (t : Fin 28) (b : Fin 2048) (d : Fin 1024) :
    Read.val_main_v26 (F := Ideal) x1 x6 x8 (ix3 t b d) = Cert.GruNorm.gh x1 x6 x8 t b (Cert.GruNorm.colN d) := by
  rw [Read.val_main_v26_apply]
  refine Eq.trans (congrArg (Read.val_main_v20 (F := Ideal) x1 x6 x8) ?_) (v20_eq x1 x6 x8 t b (Cert.GruNorm.colN d))
  exact funext fun a => Fin.ext (by match a with | ⟨0, _⟩ => rfl | ⟨1, _⟩ => rfl | ⟨2, _⟩ => rfl)

/-- The reset gate. -/
theorem v35_eq (x0 : FVec Ideal S2048x512 .f32) (x1 : FVec Ideal S2048x28x256 .f32) (x3 : FVec Ideal S1024x512 .f32)
    (x4 : FVec Ideal S1024 .f32) (x5 x6 : FVec Ideal S3072x1024 .f32) (x7 x8 : FVec Ideal S3072 .f32)
    (t : Fin 28) (b : Fin 2048) (d : Fin 1024) :
    Read.val_main_v35 (F := Ideal) x0 x1 x3 x4 x5 x6 x7 x8 (ix3 t b d)
      = Ideal.logistic (Cert.GruNorm.gi x0 x3 x4 x5 x7 b (Cert.GruNorm.colR d) + Cert.GruNorm.gh x1 x6 x8 t b (Cert.GruNorm.colR d)) := by
  rw [Read.val_main_v35_apply, Read.val_main_v34_apply, Read.val_main_cst_1_apply, Read.val_main_v33_apply,
    Read.val_main_v32_apply, Read.val_main_cst_0_apply, Read.val_main_v31_apply, Read.val_main_v30_apply,
    Read.val_main_v29_apply, v28_eq, v24_eq]
  simp only [Ideal.hostDivf_def, Ideal.addf_def, Ideal.subf_def, Ideal.mulf_def, Ideal.hostUnary_exp_def, Ideal.hostUnary_tanh_def, Ideal.hostNegf_def, Ideal.negf_def, Ideal.ofBits_def]
  exact logistic_word _

/-- The update gate. -/
theorem v44_eq (x0 : FVec Ideal S2048x512 .f32) (x1 : FVec Ideal S2048x28x256 .f32) (x3 : FVec Ideal S1024x512 .f32)
    (x4 : FVec Ideal S1024 .f32) (x5 x6 : FVec Ideal S3072x1024 .f32) (x7 x8 : FVec Ideal S3072 .f32)
    (t : Fin 28) (b : Fin 2048) (d : Fin 1024) :
    Read.val_main_v44 (F := Ideal) x0 x1 x3 x4 x5 x6 x7 x8 (ix3 t b d)
      = Ideal.logistic (Cert.GruNorm.gi x0 x3 x4 x5 x7 b (Cert.GruNorm.colU d) + Cert.GruNorm.gh x1 x6 x8 t b (Cert.GruNorm.colU d)) := by
  rw [Read.val_main_v44_apply, Read.val_main_v43_apply, Read.val_main_cst_3_apply, Read.val_main_v42_apply,
    Read.val_main_v41_apply, Read.val_main_cst_2_apply, Read.val_main_v40_apply, Read.val_main_v39_apply,
    Read.val_main_v38_apply, v37_eq, v25_eq]
  simp only [Ideal.hostDivf_def, Ideal.addf_def, Ideal.subf_def, Ideal.mulf_def, Ideal.hostUnary_exp_def, Ideal.hostUnary_tanh_def, Ideal.hostNegf_def, Ideal.negf_def, Ideal.ofBits_def]
  exact logistic_word _

/-- The candidate state. -/
theorem v49_eq (x0 : FVec Ideal S2048x512 .f32) (x1 : FVec Ideal S2048x28x256 .f32) (x3 : FVec Ideal S1024x512 .f32)
    (x4 : FVec Ideal S1024 .f32) (x5 x6 : FVec Ideal S3072x1024 .f32) (x7 x8 : FVec Ideal S3072 .f32)
    (t : Fin 28) (b : Fin 2048) (d : Fin 1024) :
    Read.val_main_v49 (F := Ideal) x0 x1 x3 x4 x5 x6 x7 x8 (ix3 t b d)
      = Ideal.tanh (Cert.GruNorm.gi x0 x3 x4 x5 x7 b (Cert.GruNorm.colN d)
          + Ideal.logistic (Cert.GruNorm.gi x0 x3 x4 x5 x7 b (Cert.GruNorm.colR d) + Cert.GruNorm.gh x1 x6 x8 t b (Cert.GruNorm.colR d))
            * Cert.GruNorm.gh x1 x6 x8 t b (Cert.GruNorm.colN d)) := by
  rw [Read.val_main_v49_apply, Read.val_main_v48_apply, v47_eq, Read.val_main_v45_apply, v35_eq, v26_eq]
  simp only [Ideal.hostDivf_def, Ideal.addf_def, Ideal.subf_def, Ideal.mulf_def, Ideal.hostUnary_exp_def, Ideal.hostUnary_tanh_def, Ideal.hostNegf_def, Ideal.negf_def, Ideal.ofBits_def]

/-- The blended row at `(t, b, d)`. -/
theorem v54_eq (x0 : FVec Ideal S2048x512 .f32) (x1 : FVec Ideal S2048x28x256 .f32) (x3 : FVec Ideal S1024x512 .f32)
    (x4 : FVec Ideal S1024 .f32) (x5 x6 : FVec Ideal S3072x1024 .f32) (x7 x8 : FVec Ideal S3072 .f32)
    (t : Fin 28) (b : Fin 2048) (d : Fin 1024) :
    Read.val_main_v54 (F := Ideal) x0 x1 x3 x4 x5 x6 x7 x8 (ix3 t b d) = Cert.GruNorm.pre x0 x1 x3 x4 x5 x6 x7 x8 t b d := by
  rw [Read.val_main_v54_apply, Read.val_main_v52_apply, Read.val_main_v51_apply, Read.val_main_v50_apply,
    Read.val_main_cst_4_apply, v49_eq, Read.val_main_v53_apply, v44_eq, v11_eq]
  unfold Cert.GruNorm.pre Cert.GruNorm.blend
  simp only [Ideal.hostDivf_def, Ideal.addf_def, Ideal.subf_def, Ideal.mulf_def, Ideal.hostUnary_exp_def, Ideal.hostUnary_tanh_def, Ideal.hostNegf_def, Ideal.negf_def, Ideal.ofBits_def]

end Cert.ReferenceIdeal.RefValue

end
-- ==== Proof.RefValue.lean ====
/-
  The reference's layer norm, read index by index, and the whole result: the reference program's output is the
  specification function. Each row sum starts from the f32 word of zero, which is the number zero; the divisor 1024 and
  the ε under the square root stay as their words.
-/
import proofs.«136537_j72421738545905_1_alg».proof.Proof.Gen.ReferenceIdeal.Read
import proofs.«136537_j72421738545905_1_alg».proof.Proof.Spec
import proofs.«136537_j72421738545905_1_alg».proof.Proof.RefGh
import proofs.«136537_j72421738545905_1_alg».proof.Proof.RefPre
import Idealize.ShloMosaic.Lib.ValueIdx
import Idealize.ShloMosaic.PureOps.Ideal.Laws

noncomputable section

namespace Cert.ReferenceIdeal.RefValue

open Cert.ReferenceIdeal Idealize.ShloMosaic Idealize.ShloMosaic.ValueIdx
open scoped BigOperators

/-- The row sum of the blended row. -/
theorem v55_eq (x0 : FVec Ideal S2048x512 .f32) (x1 : FVec Ideal S2048x28x256 .f32) (x3 : FVec Ideal S1024x512 .f32)
    (x4 : FVec Ideal S1024 .f32) (x5 x6 : FVec Ideal S3072x1024 .f32) (x7 x8 : FVec Ideal S3072 .f32)
    (t : Fin 28) (b : Fin 2048) :
    Read.val_main_v55 (F := Ideal) x0 x1 x3 x4 x5 x6 x7 x8 (ix2 t b) = ∑ k : Fin 1024, Cert.GruNorm.pre x0 x1 x3 x4 x5 x6 x7 x8 t b k := by
  rw [Read.val_main_v55_apply, Read.val_main_cst_5_apply, Ideal.ofBits_def, Ideal.ofBits_zero_f32, zero_add]
  refine Finset.sum_congr rfl fun k _ => ?_
  refine Eq.trans (congrArg (Read.val_main_v54 (F := Ideal) x0 x1 x3 x4 x5 x6 x7 x8) ?_) (v54_eq x0 x1 x3 x4 x5 x6 x7 x8 t b k)
  exact funext fun a => Fin.ext (by match a with | ⟨0, _⟩ => rfl | ⟨1, _⟩ => rfl | ⟨2, _⟩ => rfl)

/-- The row mean, kept as a column of one entry. -/
theorem v58_eq (x0 : FVec Ideal S2048x512 .f32) (x1 : FVec Ideal S2048x28x256 .f32) (x3 : FVec Ideal S1024x512 .f32)
    (x4 : FVec Ideal S1024 .f32) (x5 x6 : FVec Ideal S3072x1024 .f32) (x7 x8 : FVec Ideal S3072 .f32)
    (t : Fin 28) (b : Fin 2048) (z : Fin 1) :
    Read.val_main_v58 (F := Ideal) x0 x1 x3 x4 x5 x6 x7 x8 (ix3 t b z) = Cert.GruNorm.mean (Cert.GruNorm.pre x0 x1 x3 x4 x5 x6 x7 x8 t b) := by
  rw [Read.val_main_v58_apply, Read.val_main_v56_apply, Read.val_main_v57_apply, Read.val_main_cst_6_apply,
    Ideal.hostDivf_def, Ideal.ofBits_def]
  unfold Cert.GruNorm.mean
  refine congrArg (fun s => Ideal.div s Cert.GruNorm.c1024) ?_
  refine Eq.trans (congrArg (Read.val_main_v55 (F := Ideal) x0 x1 x3 x4 x5 x6 x7 x8) ?_) (v55_eq x0 x1 x3 x4 x5 x6 x7 x8 t b)
  exact funext fun a => Fin.ext (by match a with | ⟨0, _⟩ => rfl | ⟨1, _⟩ => rfl)

/-- The row mean, spread back over the row. -/
theorem v59_eq (x0 : FVec Ideal S2048x512 .f32) (x1 : FVec Ideal S2048x28x256 .f32) (x3 : FVec Ideal S1024x512 .f32)
    (x4 : FVec Ideal S1024 .f32) (x5 x6 : FVec Ideal S3072x1024 .f32) (x7 x8 : FVec Ideal S3072 .f32)
    (t : Fin 28) (b : Fin 2048) (d : Fin 1024) :
    Read.val_main_v59 (F := Ideal) x0 x1 x3 x4 x5 x6 x7 x8 (ix3 t b d) = Cert.GruNorm.mean (Cert.GruNorm.pre x0 x1 x3 x4 x5 x6 x7 x8 t b) := by
  rw [Read.val_main_v59_apply]
  refine Eq.trans (congrArg (Read.val_main_v58 (F := Ideal) x0 x1 x3 x4 x5 x6 x7 x8) ?_) (v58_eq x0 x1 x3 x4 x5 x6 x7 x8 t b (⟨0, Nat.one_pos⟩ : Fin 1))
  exact funext fun a => Fin.ext (by match a with | ⟨0, _⟩ => rfl | ⟨1, _⟩ => rfl | ⟨2, _⟩ => rfl)

/-- The row mean, spread back over the row. -/
theorem v66_eq (x0 : FVec Ideal S2048x512 .f32) (x1 : FVec Ideal S2048x28x256 .f32) (x3 : FVec Ideal S1024x512 .f32)
    (x4 : FVec Ideal S1024 .f32) (x5 x6 : FVec Ideal S3072x1024 .f32) (x7 x8 : FVec Ideal S3072 .f32)
    (t : Fin 28) (b : Fin 2048) (d : Fin 1024) :
    Read.val_main_v66 (F := Ideal) x0 x1 x3 x4 x5 x6 x7 x8 (ix3 t b d) = Cert.GruNorm.mean (Cert.GruNorm.pre x0 x1 x3 x4 x5 x6 x7 x8 t b) := by
  rw [Read.val_main_v66_apply]
  refine Eq.trans (congrArg (Read.val_main_v58 (F := Ideal) x0 x1 x3 x4 x5 x6 x7 x8) ?_) (v58_eq x0 x1 x3 x4 x5 x6 x7 x8 t b (⟨0, Nat.one_pos⟩ : Fin 1))
  exact funext fun a => Fin.ext (by match a with | ⟨0, _⟩ => rfl | ⟨1, _⟩ => rfl | ⟨2, _⟩ => rfl)

/-- The row sum of the squared deviations. -/
theorem v62_eq (x0 : FVec Ideal S2048x512 .f32) (x1 : FVec Ideal S2048x28x256 .f32) (x3 : FVec Ideal S1024x512 .f32)
    (x4 : FVec Ideal S1024 .f32) (x5 x6 : FVec Ideal S3072x1024 .f32) (x7 x8 : FVec Ideal S3072 .f32)
    (t : Fin 28) (b : Fin 2048) :
    Read.val_main_v62 (F := Ideal) x0 x1 x3 x4 x5 x6 x7 x8 (ix2 t b)
      = ∑ k : Fin 1024, (Cert.GruNorm.pre x0 x1 x3 x4 x5 x6 x7 x8 t b k - Cert.GruNorm.mean (Cert.GruNorm.pre x0 x1 x3 x4 x5 x6 x7 x8 t b)) * (Cert.GruNorm.pre x0 x1 x3 x4 x5 x6 x7 x8 t b k - Cert.GruNorm.mean (Cert.GruNorm.pre x0 x1 x3 x4 x5 x6 x7 x8 t b)) := by
  rw [Read.val_main_v62_apply, Read.val_main_cst_7_apply, Ideal.ofBits_def, Ideal.ofBits_zero_f32, zero_add]
  refine Finset.sum_congr rfl fun k _ => ?_
  have hi : Read.idx_main_v62 (ix2 t b) k = ix3 t b k :=
    funext fun a => Fin.ext (by match a with | ⟨0, _⟩ => rfl | ⟨1, _⟩ => rfl | ⟨2, _⟩ => rfl)
  rw [hi, Read.val_main_v61_apply, Read.val_main_v60_apply, v54_eq, v59_eq, Ideal.mulf_def, Ideal.subf_def]

/-- The row variance, kept as a column of one entry. -/
theorem v65_eq (x0 : FVec Ideal S2048x512 .f32) (x1 : FVec Ideal S2048x28x256 .f32) (x3 : FVec Ideal S1024x512 .f32)
    (x4 : FVec Ideal S1024 .f32) (x5 x6 : FVec Ideal S3072x1024 .f32) (x7 x8 : FVec Ideal S3072 .f32)
    (t : Fin 28) (b : Fin 2048) (z : Fin 1) :
    Read.val_main_v65 (F := Ideal) x0 x1 x3 x4 x5 x6 x7 x8 (ix3 t b z)
      = Cert.GruNorm.mean (fun k => (Cert.GruNorm.pre x0 x1 x3 x4 x5 x6 x7 x8 t b k - Cert.GruNorm.mean (Cert.GruNorm.pre x0 x1 x3 x4 x5 x6 x7 x8 t b)) * (Cert.GruNorm.pre x0 x1 x3 x4 x5 x6 x7 x8 t b k - Cert.GruNorm.mean (Cert.GruNorm.pre x0 x1 x3 x4 x5 x6 x7 x8 t b))) := by
  rw [Read.val_main_v65_apply, Read.val_main_v63_apply, Read.val_main_v64_apply, Read.val_main_cst_8_apply,
    Ideal.hostDivf_def, Ideal.ofBits_def]
  show Ideal.div _ Cert.GruNorm.c1024
    = Ideal.div (∑ k : Fin 1024, (Cert.GruNorm.pre x0 x1 x3 x4 x5 x6 x7 x8 t b k - Cert.GruNorm.mean (Cert.GruNorm.pre x0 x1 x3 x4 x5 x6 x7 x8 t b)) * (Cert.GruNorm.pre x0 x1 x3 x4 x5 x6 x7 x8 t b k - Cert.GruNorm.mean (Cert.GruNorm.pre x0 x1 x3 x4 x5 x6 x7 x8 t b))) Cert.GruNorm.c1024
  refine congrArg (fun s => Ideal.div s Cert.GruNorm.c1024) ?_
  refine Eq.trans (congrArg (Read.val_main_v62 (F := Ideal) x0 x1 x3 x4 x5 x6 x7 x8) ?_) (v62_eq x0 x1 x3 x4 x5 x6 x7 x8 t b)
  exact funext fun a => Fin.ext (by match a with | ⟨0, _⟩ => rfl | ⟨1, _⟩ => rfl)

/-- The reciprocal square root of the variance plus ε. -/
theorem v70_eq (x0 : FVec Ideal S2048x512 .f32) (x1 : FVec Ideal S2048x28x256 .f32) (x3 : FVec Ideal S1024x512 .f32)
    (x4 : FVec Ideal S1024 .f32) (x5 x6 : FVec Ideal S3072x1024 .f32) (x7 x8 : FVec Ideal S3072 .f32)
    (t : Fin 28) (b : Fin 2048) (z : Fin 1) :
    Read.val_main_v70 (F := Ideal) x0 x1 x3 x4 x5 x6 x7 x8 (ix3 t b z)
      = Ideal.rsqrt (Cert.GruNorm.mean (fun k => (Cert.GruNorm.pre x0 x1 x3 x4 x5 x6 x7 x8 t b k - Cert.GruNorm.mean (Cert.GruNorm.pre x0 x1 x3 x4 x5 x6 x7 x8 t b)) * (Cert.GruNorm.pre x0 x1 x3 x4 x5 x6 x7 x8 t b k - Cert.GruNorm.mean (Cert.GruNorm.pre x0 x1 x3 x4 x5 x6 x7 x8 t b))) + Cert.GruNorm.eps) := by
  rw [Read.val_main_v70_apply, Read.val_main_v69_apply, v65_eq, Read.val_main_v68_apply, Read.val_main_cst_9_apply,
    Ideal.hostUnary_rsqrt_def, Ideal.addf_def, Ideal.ofBits_def]

/-- The reference program's result is the specification function. -/
theorem ref_out (x0 : FVec Ideal S2048x512 .f32) (x1 : FVec Ideal S2048x28x256 .f32) (x3 : FVec Ideal S1024x512 .f32)
    (x4 : FVec Ideal S1024 .f32) (x5 x6 : FVec Ideal S3072x1024 .f32) (x7 x8 : FVec Ideal S3072 .f32)
    (x9 x10 : FVec Ideal S1024 .f32) :
    Cert.ReferenceIdeal.Read.val_main_v78 (F := Ideal) x0 x1 x3 x4 x5 x6 x7 x8 x9 x10
      = Cert.GruNorm.out x0 x1 x3 x4 x5 x6 x7 x8 x9 x10 := by
  funext i
  obtain ⟨t, b, d, rfl⟩ : ∃ (t : Fin 28) (b : Fin 2048) (d : Fin 1024), i = ix3 t b d := ⟨i 0, i 1, i 2, eq_ix3 i⟩
  have h71 : Read.idx_main_v71 (ix3 t b d) = ix3 t b (⟨0, Nat.one_pos⟩ : Fin 1) :=
    funext fun a => Fin.ext (by match a with | ⟨0, _⟩ => rfl | ⟨1, _⟩ => rfl | ⟨2, _⟩ => rfl)
  have h9 : Read.idx_main_v73 (Read.idx_main_v74 (ix3 t b d)) = ix1 d :=
    funext fun a => Fin.ext (by match a with | ⟨0, _⟩ => rfl)
  have h10 : Read.idx_main_v76 (Read.idx_main_v77 (ix3 t b d)) = ix1 d :=
    funext fun a => Fin.ext (by match a with | ⟨0, _⟩ => rfl)
  rw [Cert.GruNorm.out_apply, Read.val_main_v78_apply, Read.val_main_v75_apply, Read.val_main_v72_apply,
    Read.val_main_v67_apply, v54_eq, v66_eq, Read.val_main_v71_apply, h71, v70_eq, Read.val_main_v74_apply,
    Read.val_main_v73_apply, h9, Read.val_main_v77_apply, Read.val_main_v76_apply, h10]
  unfold Cert.GruNorm.layerNorm
  simp only [Ideal.addf_def, Ideal.mulf_def, Ideal.subf_def]

end Cert.ReferenceIdeal.RefValue

end
-- ==== Proof.lean ====
/-
  The certificate of a teacher-forced GRU step followed by a layer norm: the kernel (two pallas_calls) against its jnp reference,
  as functions of eleven argument arrays, on the extended reals.

  Both programs compute, for every time step `t < 28`, batch row `b < 2048` and entry `d < 1024`,

      out[t, b, d] = layerNorm (blend (gi[b, ·]) (gh[t, b, ·]) (h[t, b, ·])) at d,

  with `x = z · fcwᵀ + fcb`, `gi = x · wihᵀ + bih`, `h[t]` the teacher inputs of step `t − 1` tiled four times (zero at `t = 0`),
  `gh = h · whhᵀ + bhh`, the blend `(1 − u) · n + u · h` of the gates `r, u = σ(…)`, `n = tanh(gi_n + r · gh_n)`, and the layer norm
  over the 1024 entries of a row with scale `gam`, shift `bet` and the same ε word (Proof/Spec.lean: `Cert.GruNorm.out`).

  The kernel gets there in two regions. The first computes `gi` once, four row blocks of 512; the second has no recurrence left
  (the previous state is a teacher input, never a computed one), so time is a grid axis: point `(b, t)` reads the teacher block
  of step `max (t − 1) 0`, replaces it by zeros when `t = 0`, and writes one [256, 1024] block of the result. The reference
  prepends a zero slab to the tiled, time-major teacher inputs and drops the last step. No law beyond reading both sides index
  by index is needed: the sums are taken over the same index sets in both programs, the logistic function is one function
  whether applied as an operation or spelt `1 / (1 + e⁻ˣ)`, a change of float format is the identity, and every float literal
  is the same word on both sides. The precondition (finite inputs) is not used.

  Frames: each program terminates without a fault and leaves its arguments as launched — the kernel's two frames by its
  frame certificate over the two regions (Proof/FrameKernel.lean, Proof/FrameKernelIdeal.lean), the reference's by its run with the
  result dropped. The idealization rewrote no operation, so `preserves` is `True`.
-/
import proofs.«136537_j72421738545905_1_alg».proof.Defs
import proofs.«136537_j72421738545905_1_alg».proof.Proof.Gen.Kernel
import proofs.«136537_j72421738545905_1_alg».proof.Proof.Gen.Kernel.Skeleton
import proofs.«136537_j72421738545905_1_alg».proof.Proof.Gen.Kernel.Launch
import proofs.«136537_j72421738545905_1_alg».proof.Proof.Gen.Kernel.Points
import proofs.«136537_j72421738545905_1_alg».proof.Proof.FrameKernel
import proofs.«136537_j72421738545905_1_alg».proof.Proof.Gen.KernelIdeal
import proofs.«136537_j72421738545905_1_alg».proof.Proof.Gen.KernelIdeal.Skeleton
import proofs.«136537_j72421738545905_1_alg».proof.Proof.Gen.KernelIdeal.Launch
import proofs.«136537_j72421738545905_1_alg».proof.Proof.Gen.KernelIdeal.Points
import proofs.«136537_j72421738545905_1_alg».proof.Proof.FrameKernelIdeal
import proofs.«136537_j72421738545905_1_alg».proof.Proof.Gen.ReferenceIdeal
import proofs.«136537_j72421738545905_1_alg».proof.Proof.Gen.ReferenceIdeal.Run
import proofs.«136537_j72421738545905_1_alg».proof.Proof.Gen.ReferenceIdeal.Read
import proofs.«136537_j72421738545905_1_alg».proof.Proof.Gen.Pre_finite_inputs
import proofs.«136537_j72421738545905_1_alg».proof.Proof.KernelValue
import proofs.«136537_j72421738545905_1_alg».proof.Proof.RefValue
import Idealize.ShloMosaic.Adequacy
import Idealize.ShloMosaic.Init

noncomputable section

namespace Cert.Proof

open Idealize.ShloMosaic Idealize.SL.Sem

theorem frame_k : Cert.frame_Kernel := fun m ρ _ => Cert.Kernel.GenP.frame m ρ
theorem frame_ki : Cert.frame_KernelIdeal := fun m ρ _ => Cert.KernelIdeal.GenP.frame m ρ
theorem frame_ri : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- Both idealized programs end with the result at `Cert.GruNorm.out` of the arguments: the kernel's by reading its two regions'
    write-backs (Proof/KernelValue.lean), the reference's by reading its operations one at a time (Proof/RefValue.lean), from
    memories that agree on the arguments. -/
theorem algebraic : Cert.algebraic_KernelIdeal_ReferenceIdeal := by
  intro m ρ m' ρ' _ hagree
  refine ⟨fun c => Cert.GruNorm.out (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)),
    Cert.KernelIdeal.Whole.run m ρ, ?_⟩
  refine (θ_run Cert.ReferenceIdeal.defs _ _).mono (fun _ h c => ⟨(h c).1.trans ?_, (h c).2⟩)
    (Cert.ReferenceIdeal.Value.run (F := Ideal) m' ρ')
  obtain ⟨a0, a1, -, a3, a4, a5, a6, a7, a8, a9, a10⟩ := hagree c
  rw [Cert.ReferenceIdeal.Read.val_main_v78_eq, Cert.ReferenceIdeal.RefValue.ref_out, a0, a1, a3, a4, a5, a6, a7, a8, a9, a10]

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
